-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S128x4096 : Shape := ⟨2, ![128, 4096]⟩
abbrev S128x128x32 : Shape := ⟨3, ![128, 128, 32]⟩
abbrev S128x128 : Shape := ⟨2, ![128, 128]⟩
abbrev S128x128x1 : Shape := ⟨3, ![128, 128, 1]⟩
abbrev S1024x2048 : Shape := ⟨2, ![1024, 2048]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x128x32 : S128x4096.ShapeCasts S128x128x32
  reduces_S128x128x32_S128x128 : S128x128x32.Reduces [2] S128x128
  shapeCasts_S128x128_S128x128x1 : S128x128.ShapeCasts S128x128x1
  shapeCasts_S128x128x1_S128x128x1 : S128x128x1.ShapeCasts S128x128x1
  broadcasts_S128x128x1_S128x128x32 : S128x128x1.Broadcasts S128x128x32
  shapeCasts_S128x128x32_S128x4096 : S128x128x32.ShapeCasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .bf16 = 32 ∨ (Rect.block (s := S8192x4096) S128x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .bf16 = 32 ∨ (Rect.block (s := S4096x4096) S128x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x4096.size a
  hwx2_0 : ∀ i : grid2.Coords, EltTy.bits .bf16 = 32 ∨ (Rect.block (s := S8192x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x4096.size a
  hwx2_2 : ∀ i : grid2.Coords, EltTy.bits .f32 = 32 ∨ (Rect.block (s := S8192x4096) S1024x1024.size (cc2_transform_2 i) (hinb2_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8192x4096 : Shape := ⟨2, ![8192, 4096]⟩
abbrev S8192x128x32 : Shape := ⟨3, ![8192, 128, 32]⟩
abbrev S_ : Shape := ⟨0, ![]⟩
abbrev S8192x128 : Shape := ⟨2, ![8192, 128]⟩
abbrev S8192x128x1 : Shape := ⟨3, ![8192, 128, 1]⟩
abbrev S4096x128x32 : Shape := ⟨3, ![4096, 128, 32]⟩
abbrev S4096x128 : Shape := ⟨2, ![4096, 128]⟩
abbrev S4096x128x1 : Shape := ⟨3, ![4096, 128, 1]⟩

abbrev nBuf : Space → Nat
  | .hbm => 175
  | .vmem => 0
  | .smem => 0
  | _ => 0

abbrev hbmTy0_0 (i : Nat) : BufTy := match i % 128 with
  | 0 => ⟨S4x2048x4096, .f32⟩
  | 1 => ⟨S4096x4096, .f32⟩
  | 2 => ⟨S8192x4096, .f32⟩
  | 3 => ⟨S8192x128x32, .f32⟩
  | 4 => ⟨S8192x128x32, .f32⟩
  | 5 => ⟨S_, .f32⟩
  | 6 => ⟨S8192x128, .f32⟩
  | 7 => ⟨S_, .f32⟩
  | 8 => ⟨S8192x128, .f32⟩
  | 9 => ⟨S8192x128, .f32⟩
  | 10 => ⟨S_, .f32⟩
  | 11 => ⟨S8192x128, .f32⟩
  | 12 => ⟨S8192x128, .f32⟩
  | 13 => ⟨S_, .f32⟩
  | 14 => ⟨S8192x128, .f32⟩
  | 15 => ⟨S8192x128, .f32⟩
  | 16 => ⟨S8192x128x1, .f32⟩
  | 17 => ⟨S8192x128x32, .f32⟩
  | 18 => ⟨S8192x128x32, .f32⟩
  | 19 => ⟨S_, .f32⟩
  | 20 => ⟨S_, .f32⟩
  | 21 => ⟨S_, .f32⟩
  | 22 => ⟨S8192x128x32, .f32⟩
  | 23 => ⟨S8192x128x32, .f32⟩
  | 24 => ⟨S_, .f32⟩
  | 25 => ⟨S8192x128x32, .f32⟩
  | 26 => ⟨S8192x128x32, .f32⟩
  | 27 => ⟨S_, .f32⟩
  | 28 => ⟨S8192x128x32, .f32⟩
  | 29 => ⟨S8192x128x32, .i1⟩
  | 30 => ⟨S_, .f32⟩
  | 31 => ⟨S_, .f32⟩
  | 32 => ⟨S8192x128x32, .f32⟩
  | 33 => ⟨S8192x128x32, .f32⟩
  | 34 => ⟨S8192x128x32, .f32⟩
  | 35 => ⟨S8192x128x32, .f32⟩
  | 36 => ⟨S_, .f32⟩
  | 37 => ⟨S8192x128x32, .f32⟩
  | 38 => ⟨S8192x128x32, .i1⟩
  | 39 => ⟨S_, .f32⟩
  | 40 => ⟨S8192x128x32, .f32⟩
  | 41 => ⟨S8192x128x32, .i1⟩
  | 42 => ⟨S_, .f32⟩
  | 43 => ⟨S8192x128x32, .f32⟩
  | 44 => ⟨S8192x128x32, .i1⟩
  | 45 => ⟨S_, .f32⟩
  | 46 => ⟨S8192x128x32, .f32⟩
  | 47 => ⟨S8192x128x32, .i1⟩
  | 48 => ⟨S_, .f32⟩
  | 49 => ⟨S8192x128x32, .f32⟩
  | 50 => ⟨S8192x128x32, .i1⟩
  | 51 => ⟨S_, .f32⟩
  | 52 => ⟨S8192x128x32, .f32⟩
  | 53 => ⟨S8192x128x32, .i1⟩
  | 54 => ⟨S_, .f32⟩
  | 55 => ⟨S8192x128x32, .f32⟩
  | 56 => ⟨S8192x128x32, .i1⟩
  | 57 => ⟨S_, .f32⟩
  | 58 => ⟨S_, .f32⟩
  | 59 => ⟨S8192x128x32, .f32⟩
  | 60 => ⟨S8192x128x32, .f32⟩
  | 61 => ⟨S8192x128x32, .f32⟩
  | 62 => ⟨S_, .f32⟩
  | 63 => ⟨S8192x128x32, .f32⟩
  | 64 => ⟨S8192x128x32, .f32⟩
  | 65 => ⟨S_, .f32⟩
  | 66 => ⟨S8192x128x32, .f32⟩
  | 67 => ⟨S8192x128x32, .f32⟩
  | 68 => ⟨S_, .f32⟩
  | 69 => ⟨S8192x128x32, .f32⟩
  | 70 => ⟨S8192x128x32, .f32⟩
  | 71 => ⟨S_, .f32⟩
  | 72 => ⟨S8192x128x32, .f32⟩
  | 73 => ⟨S8192x128x32, .f32⟩
  | 74 => ⟨S_, .f32⟩
  | 75 => ⟨S8192x128x32, .f32⟩
  | 76 => ⟨S8192x128x32, .f32⟩
  | 77 => ⟨S_, .f32⟩
  | 78 => ⟨S8192x128x32, .f32⟩
  | 79 => ⟨S8192x128x32, .f32⟩
  | 80 => ⟨S8192x128x32, .f32⟩
  | 81 => ⟨S8192x4096, .f32⟩
  | 82 => ⟨S8192x128x32, .f32⟩
  | 83 => ⟨S8192x128x1, .f32⟩
  | 84 => ⟨S8192x128x32, .f32⟩
  | 85 => ⟨S8192x128x32, .f32⟩
  | 86 => ⟨S8192x128x32, .f32⟩
  | 87 => ⟨S8192x4096, .f32⟩
  | 88 => ⟨S4096x128x32, .f32⟩
  | 89 => ⟨S4096x128x32, .f32⟩
  | 90 => ⟨S_, .f32⟩
  | 91 => ⟨S4096x128, .f32⟩
  | 92 => ⟨S_, .f32⟩
  | 93 => ⟨S4096x128, .f32⟩
  | 94 => ⟨S4096x128, .f32⟩
  | 95 => ⟨S_, .f32⟩
  | 96 => ⟨S4096x128, .f32⟩
  | 97 => ⟨S4096x128, .f32⟩
  | 98 => ⟨S_, .f32⟩
  | 99 => ⟨S4096x128, .f32⟩
  | 100 => ⟨S4096x128, .f32⟩
  | 101 => ⟨S4096x128x1, .f32⟩
  | 102 => ⟨S4096x128x32, .f32⟩
  | 103 => ⟨S4096x128x32, .f32⟩
  | 104 => ⟨S_, .f32⟩
  | 105 => ⟨S_, .f32⟩
  | 106 => ⟨S_, .f32⟩
  | 107 => ⟨S4096x128x32, .f32⟩
  | 108 => ⟨S4096x128x32, .f32⟩
  | 109 => ⟨S_, .f32⟩
  | 110 => ⟨S4096x128x32, .f32⟩
  | 111 => ⟨S4096x128x32, .f32⟩
  | 112 => ⟨S_, .f32⟩
  | 113 => ⟨S4096x128x32, .f32⟩
  | 114 => ⟨S4096x128x32, .i1⟩
  | 115 => ⟨S_, .f32⟩
  | 116 => ⟨S_, .f32⟩
  | 117 => ⟨S4096x128x32, .f32⟩
  | 118 => ⟨S4096x128x32, .f32⟩
  | 119 => ⟨S4096x128x32, .f32⟩
  | 120 => ⟨S4096x128x32, .f32⟩
  | 121 => ⟨S_, .f32⟩
  | 122 => ⟨S4096x128x32, .f32⟩
  | 123 => ⟨S4096x128x32, .i1⟩
  | 124 => ⟨S_, .f32⟩
  | 125 => ⟨S4096x128x32, .f32⟩
  | 126 => ⟨S4096x128x32, .i1⟩
  | 127 => ⟨S_, .f32⟩
  | _ => ⟨S4x2048x4096, .f32⟩

abbrev hbmTy0_1 (i : Nat) : BufTy := match i % 128 with
  | 0 => ⟨S4096x128x32, .f32⟩
  | 1 => ⟨S4096x128x32, .i1⟩
  | 2 => ⟨S_, .f32⟩
  | 3 => ⟨S4096x128x32, .f32⟩
  | 4 => ⟨S4096x128x32, .i1⟩
  | 5 => ⟨S_, .f32⟩
  | 6 => ⟨S4096x128x32, .f32⟩
  | 7 => ⟨S4096x128x32, .i1⟩
  | 8 => ⟨S_, .f32⟩
  | 9 => ⟨S4096x128x32, .f32⟩
  | 10 => ⟨S4096x128x32, .i1⟩
  | 11 => ⟨S_, .f32⟩
  | 12 => ⟨S4096x128x32, .f32⟩
  | 13 => ⟨S4096x128x32, .i1⟩
  | 14 => ⟨S_, .f32⟩
  | 15 => ⟨S_, .f32⟩
  | 16 => ⟨S4096x128x32, .f32⟩
  | 17 => ⟨S4096x128x32, .f32⟩
  | 18 => ⟨S4096x128x32, .f32⟩
  | 19 => ⟨S_, .f32⟩
  | 20 => ⟨S4096x128x32, .f32⟩
  | 21 => ⟨S4096x128x32, .f32⟩
  | 22 => ⟨S_, .f32⟩
  | 23 => ⟨S4096x128x32, .f32⟩
  | 24 => ⟨S4096x128x32, .f32⟩
  | 25 => ⟨S_, .f32⟩
  | 26 => ⟨S4096x128x32, .f32⟩
  | 27 => ⟨S4096x128x32, .f32⟩
  | 28 => ⟨S_, .f32⟩
  | 29 => ⟨S4096x128x32, .f32⟩
  | 30 => ⟨S4096x128x32, .f32⟩
  | 31 => ⟨S_, .f32⟩
  | 32 => ⟨S4096x128x32, .f32⟩
  | 33 => ⟨S4096x128x32, .f32⟩
  | 34 => ⟨S_, .f32⟩
  | 35 => ⟨S4096x128x32, .f32⟩
  | 36 => ⟨S4096x128x32, .f32⟩
  | 37 => ⟨S4096x128x32, .f32⟩
  | 38 => ⟨S4096x4096, .f32⟩
  | 39 => ⟨S4096x128x32, .f32⟩
  | 40 => ⟨S4096x128x1, .f32⟩
  | 41 => ⟨S4096x128x32, .f32⟩
  | 42 => ⟨S4096x128x32, .f32⟩
  | 43 => ⟨S4096x128x32, .f32⟩
  | 44 => ⟨S4096x4096, .f32⟩
  | 45 => ⟨S8192x4096, .f32⟩
  | 46 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_cst_7 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_v21 : Ref sig .tc := ⟨.hbm, 41, rfl⟩
abbrev main_cst_10 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_v25 : Ref sig .tc := ⟨.hbm, 47, rfl⟩
abbrev main_cst_12 : Ref sig .tc := ⟨.hbm, 48, rfl⟩
abbrev main_v26 : Ref sig .tc := ⟨.hbm, 49, rfl⟩
abbrev main_v27 : Ref sig .tc := ⟨.hbm, 50, rfl⟩
abbrev main_cst_13 : Ref sig .tc := ⟨.hbm, 51, rfl⟩
abbrev main_v28 : Ref sig .tc := ⟨.hbm, 52, rfl⟩
abbrev main_v29 : Ref sig .tc := ⟨.hbm, 53, rfl⟩
abbrev main_cst_14 : Ref sig .tc := ⟨.hbm, 54, rfl⟩
abbrev main_v30 : Ref sig .tc := ⟨.hbm, 55, rfl⟩
abbrev main_v31 : Ref sig .tc := ⟨.hbm, 56, rfl⟩
abbrev main_cst_15 : Ref sig .tc := ⟨.hbm, 57, rfl⟩
abbrev main_cst_16 : Ref sig .tc := ⟨.hbm, 58, rfl⟩
abbrev main_call2_v0 : Ref sig .tc := ⟨.hbm, 59, rfl⟩
abbrev main_call2_v1 : Ref sig .tc := ⟨.hbm, 60, rfl⟩
abbrev main_v32 : Ref sig .tc := ⟨.hbm, 61, rfl⟩
abbrev main_cst_17 : Ref sig .tc := ⟨.hbm, 62, rfl⟩
abbrev main_call3_v0 : Ref sig .tc := ⟨.hbm, 63, rfl⟩
abbrev main_v33 : Ref sig .tc := ⟨.hbm, 64, rfl⟩
abbrev main_cst_18 : Ref sig .tc := ⟨.hbm, 65, rfl⟩
abbrev main_call4_v0 : Ref sig .tc := ⟨.hbm, 66, rfl⟩
abbrev main_v34 : Ref sig .tc := ⟨.hbm, 67, rfl⟩
abbrev main_cst_19 : Ref sig .tc := ⟨.hbm, 68, rfl⟩
abbrev main_call5_v0 : Ref sig .tc := ⟨.hbm, 69, rfl⟩
abbrev main_v35 : Ref sig .tc := ⟨.hbm, 70, rfl⟩
abbrev main_cst_20 : Ref sig .tc := ⟨.hbm, 71, rfl⟩
abbrev main_call6_v0 : Ref sig .tc := ⟨.hbm, 72, rfl⟩
abbrev main_v36 : Ref sig .tc := ⟨.hbm, 73, rfl⟩
abbrev main_cst_21 : Ref sig .tc := ⟨.hbm, 74, rfl⟩
abbrev main_call7_v0 : Ref sig .tc := ⟨.hbm, 75, rfl⟩
abbrev main_v37 : Ref sig .tc := ⟨.hbm, 76, rfl⟩
abbrev main_cst_22 : Ref sig .tc := ⟨.hbm, 77, rfl⟩
abbrev main_call8_v0 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_23 : Ref sig .tc := ⟨.hbm, 90, rfl⟩
abbrev main_v49 : Ref sig .tc := ⟨.hbm, 91, rfl⟩
abbrev main_cst_24 : Ref sig .tc := ⟨.hbm, 92, rfl⟩
abbrev main_v50 : Ref sig .tc := ⟨.hbm, 93, rfl⟩
abbrev main_v51 : Ref sig .tc := ⟨.hbm, 94, rfl⟩
abbrev main_cst_25 : Ref sig .tc := ⟨.hbm, 95, rfl⟩
abbrev main_v52 : Ref sig .tc := ⟨.hbm, 96, rfl⟩
abbrev main_v53 : Ref sig .tc := ⟨.hbm, 97, rfl⟩
abbrev main_cst_26 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_27 : Ref sig .tc := ⟨.hbm, 104, rfl⟩
abbrev main_cst_28 : Ref sig .tc := ⟨.hbm, 105, rfl⟩
abbrev main_call9_v0 : Ref sig .tc := ⟨.hbm, 106, rfl⟩
abbrev main_call9_v1 : Ref sig .tc := ⟨.hbm, 107, rfl⟩
abbrev main_call9_v2 : Ref sig .tc := ⟨.hbm, 108, rfl⟩
abbrev main_call9_v3 : Ref sig .tc := ⟨.hbm, 109, rfl⟩
abbrev main_call9_v4 : Ref sig .tc := ⟨.hbm, 110, rfl⟩
abbrev main_v59 : Ref sig .tc := ⟨.hbm, 111, rfl⟩
abbrev main_cst_29 : Ref sig .tc := ⟨.hbm, 112, rfl⟩
abbrev main_v60 : Ref sig .tc := ⟨.hbm, 113, rfl⟩
abbrev main_v61 : Ref sig .tc := ⟨.hbm, 114, rfl⟩
abbrev main_cst_30 : Ref sig .tc := ⟨.hbm, 115, rfl⟩
abbrev main_cst_31 : Ref sig .tc := ⟨.hbm, 116, rfl⟩
abbrev main_call10_v0 : Ref sig .tc := ⟨.hbm, 117, rfl⟩
abbrev main_call10_v1 : Ref sig .tc := ⟨.hbm, 118, rfl⟩
abbrev main_v62 : Ref sig .tc := ⟨.hbm, 119, rfl⟩
abbrev main_v63 : Ref sig .tc := ⟨.hbm, 120, rfl⟩
abbrev main_cst_32 : Ref sig .tc := ⟨.hbm, 121, rfl⟩
abbrev main_v64 : Ref sig .tc := ⟨.hbm, 122, rfl⟩
abbrev main_v65 : Ref sig .tc := ⟨.hbm, 123, rfl⟩
abbrev main_cst_33 : Ref sig .tc := ⟨.hbm, 124, rfl⟩
abbrev main_v66 : Ref sig .tc := ⟨.hbm, 125, rfl⟩
abbrev main_v67 : Ref sig .tc := ⟨.hbm, 126, rfl⟩
abbrev main_cst_34 : Ref sig .tc := ⟨.hbm, 127, rfl⟩
abbrev main_v68 : Ref sig .tc := ⟨.hbm, 128, rfl⟩
abbrev main_v69 : Ref sig .tc := ⟨.hbm, 129, rfl⟩
abbrev main_cst_35 : Ref sig .tc := ⟨.hbm, 130, rfl⟩
abbrev main_v70 : Ref sig .tc := ⟨.hbm, 131, rfl⟩
abbrev main_v71 : Ref sig .tc := ⟨.hbm, 132, rfl⟩
abbrev main_cst_36 : Ref sig .tc := ⟨.hbm, 133, rfl⟩
abbrev main_v72 : Ref sig .tc := ⟨.hbm, 134, rfl⟩
abbrev main_v73 : Ref sig .tc := ⟨.hbm, 135, rfl⟩
abbrev main_cst_37 : Ref sig .tc := ⟨.hbm, 136, rfl⟩
abbrev main_v74 : Ref sig .tc := ⟨.hbm, 137, rfl⟩
abbrev main_v75 : Ref sig .tc := ⟨.hbm, 138, rfl⟩
abbrev main_cst_38 : Ref sig .tc := ⟨.hbm, 139, rfl⟩
abbrev main_v76 : Ref sig .tc := ⟨.hbm, 140, rfl⟩
abbrev main_v77 : Ref sig .tc := ⟨.hbm, 141, rfl⟩
abbrev main_cst_39 : Ref sig .tc := ⟨.hbm, 142, rfl⟩
abbrev main_cst_40 : Ref sig .tc := ⟨.hbm, 143, rfl⟩
abbrev main_call11_v0 : Ref sig .tc := ⟨.hbm, 144, rfl⟩
abbrev main_call11_v1 : Ref sig .tc := ⟨.hbm, 145, rfl⟩
abbrev main_v78 : Ref sig .tc := ⟨.hbm, 146, rfl⟩
abbrev main_cst_41 : Ref sig .tc := ⟨.hbm, 147, rfl⟩
abbrev main_call12_v0 : Ref sig .tc := ⟨.hbm, 148, rfl⟩
abbrev main_v79 : Ref sig .tc := ⟨.hbm, 149, rfl⟩
abbrev main_cst_42 : Ref sig .tc := ⟨.hbm, 150, rfl⟩
abbrev main_call13_v0 : Ref sig .tc := ⟨.hbm, 151, rfl⟩
abbrev main_v80 : Ref sig .tc := ⟨.hbm, 152, rfl⟩
abbrev main_cst_43 : Ref sig .tc := ⟨.hbm, 153, rfl⟩
abbrev main_call14_v0 : Ref sig .tc := ⟨.hbm, 154, rfl⟩
abbrev main_v81 : Ref sig .tc := ⟨.hbm, 155, rfl⟩
abbrev main_cst_44 : Ref sig .tc := ⟨.hbm, 156, rfl⟩
abbrev main_call15_v0 : Ref sig .tc := ⟨.hbm, 157, rfl⟩
abbrev main_v82 : Ref sig .tc := ⟨.hbm, 158, rfl⟩
abbrev main_cst_45 : Ref sig .tc := ⟨.hbm, 159, rfl⟩
abbrev main_call16_v0 : Ref sig .tc := ⟨.hbm, 160, rfl⟩
abbrev main_v83 : Ref sig .tc := ⟨.hbm, 161, rfl⟩
abbrev main_cst_46 : Ref sig .tc := ⟨.hbm, 162, rfl⟩
abbrev main_call17_v0 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x128x32 : S8192x4096.ShapeCasts S8192x128x32
  reducesTo_S8192x128x32_S8192x128_d2 : S8192x128x32.ReducesTo [2] S8192x128
  h_S_ : 0 < S_.numel
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  bcast_S8192x128x1_S8192x128x32_0_1_2 : S8192x128x1.BroadcastsInDim S8192x128x32 (![0, 1, 2] : Fin 3 → Fin S8192x128x32.rank)
  bcast_S_S8192x128x32 : S_.BroadcastsInDim S8192x128x32 (![] : Fin 0 → Fin S8192x128x32.rank)
  shapeCasts_S8192x128x32_S8192x4096 : S8192x128x32.ShapeCasts S8192x4096
  shapeCasts_S4096x4096_S4096x128x32 : S4096x4096.ShapeCasts S4096x128x32
  reducesTo_S4096x128x32_S4096x128_d2 : S4096x128x32.ReducesTo [2] S4096x128
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Region0.lean ====
/-
  Region 0 of @main, the kernel that quantises and dequantises the activations block by block: what its body leaves in its
  output window's staging buffer, and the body obligation of its pipeline, at any float instance.

  A grid point t owns rows 128 t .. 128 t + 127 of the array: the input window's block is those rows, fetched at every
  point, and the output window's block is the same rows of the result, written back at every point. The body loads
  the whole input block, computes, and stores the whole output block in one store; it also loads the output buffer
  once before storing (the value is never used), so the output buffer is handed over at any contents. Nothing is kept
  between points: the region's invariant is the scoped rest and the generator register, untouched.
-/
import proofs.«101090_j15023795602200_2_alg».proof.Proof.Gen.KernelIdeal.Launch
import proofs.«101090_j15023795602200_2_alg».proof.Proof.Gen.KernelIdeal.Skeleton
import proofs.«101090_j15023795602200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The one rectangle the body loads and stores through: the whole [128, 4096] block. -/
abbrev whole : Rect S128x4096 := Rect.unit (s := S128x4096) ![0, 0] S128x4096.size inb_S128x4096_S128x4096_0_0

/-- The value the body stores, from the loaded input block. -/
def stored (v0 : Vec F S128x4096 .f32) : FVec F S128x4096 .bf16 :=
  k0_pay1 (k0_pay4 v0) (k0_pay6 v0) (k0_pay7 v0) (k0_pay8 v0) (k0_pay9 v0) (k0_pay10 v0) (k0_pay11 v0) (k0_pay12 v0)

/-- The output window's staging buffer after the body: its one store read back. -/
def out (x0 : Vec F S128x4096 .f32) : Vec F S128x4096 .bf16 :=
  View.canon [⟨whole, stored (View.ld x0 whole)⟩]

/-- The store covers the buffer. -/
theorem cover (p0 : Vec F S128x4096 .bf16) (y : S128x4096.Idx) :
    ∃ pc ∈ ([⟨whole, p0⟩] : List (View.Piece (Elt F) S128x4096 .bf16)), y ∈ pc.1.set :=
  View.cover_of_tiled [⟨whole, p0⟩] S128x4096.size (by rfl) y

set_option maxHeartbeats 1000000 in
/-- The body on whole staging memrefs, the input's at contents x0 and the output's at anything, runs to the
    continuation holding the input's as it was and the output's at `out x0`. -/
theorem sound_kernel (c : Dev nD) (E : Set ℕ) (i : grid0.Coords) (arg1 : Memref sig .tc .vmem S128x4096 .f32) (harg1 : arg1.IsWhole)
    (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The proof data of the pipeline on core c: the arrays as the region finds them; after the body at point t the
    input's buffer at its block and the output's at `out` of it; nothing kept, nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = out (iblk V c 0 t) := by dsimp only [dat]

theorem before_0 (c : Dev nD) (t : Fin cfg0.N) (d) : (dat V c).before 0 t d = iblk V c 0 t :=
  before_in_of V (dat V c) (A_eq V c 0) (after_0 V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's memref holds its block, so `sound_kernel` applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.Region1.lean ====
/-
  Region 1 of @main, the kernel that quantises and dequantises the weights block by block: what its body leaves in its
  output window's staging buffer, and the body obligation of its pipeline, at any float instance.

  A grid point t owns rows 128 t .. 128 t + 127 of the array: the input window's block is those rows, fetched at every
  point, and the output window's block is the same rows of the result, written back at every point. The body loads
  the whole input block, computes, and stores the whole output block in one store; it also loads the output buffer
  once before storing (the value is never used), so the output buffer is handed over at any contents. Nothing is kept
  between points: the region's invariant is the scoped rest and the generator register, untouched.
-/
import proofs.«101090_j15023795602200_2_alg».proof.Proof.Gen.KernelIdeal.Launch
import proofs.«101090_j15023795602200_2_alg».proof.Proof.Gen.KernelIdeal.Skeleton
import proofs.«101090_j15023795602200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before_in_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The one rectangle the body loads and stores through: the whole [128, 4096] block. -/
abbrev whole : Rect S128x4096 := Rect.unit (s := S128x4096) ![0, 0] S128x4096.size inb_S128x4096_S128x4096_0_0

/-- The value the body stores, from the loaded input block. -/
def stored (v0 : Vec F S128x4096 .f32) : FVec F S128x4096 .bf16 :=
  k1_pay1 (k1_pay3 v0) (k1_pay5 v0) (k1_pay6 v0) (k1_pay7 v0) (k1_pay8 v0) (k1_pay9 v0) (k1_pay10 v0) (k1_pay11 v0) (Scalar.ofBits .f32 0x40600000#32)

/-- The output window's staging buffer after the body: its one store read back. -/
def out (x0 : Vec F S128x4096 .f32) : Vec F S128x4096 .bf16 :=
  View.canon [⟨whole, stored (View.ld x0 whole)⟩]

/-- The store covers the buffer. -/
theorem cover (p0 : Vec F S128x4096 .bf16) (y : S128x4096.Idx) :
    ∃ pc ∈ ([⟨whole, p0⟩] : List (View.Piece (Elt F) S128x4096 .bf16)), y ∈ pc.1.set :=
  View.cover_of_tiled [⟨whole, p0⟩] S128x4096.size (by rfl) y

set_option maxHeartbeats 1000000 in
/-- The body on whole staging memrefs, the input's at contents x0 and the output's at anything, runs to the
    continuation holding the input's as it was and the output's at `out x0`. -/
theorem sound_kernel (c : Dev nD) (E : Set ℕ) (i : grid1.Coords) (arg1 : Memref sig .tc .vmem S128x4096 .f32) (harg1 : arg1.IsWhole)
    (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc1__quant_kernel i arg1 harg1 arg2 harg2) K := by
  simp only [cc1__quant_kernel_eq_skeleton]; unfold cc1__quant_kernel_skel
  simp only [k1_part1_eq_skeleton]; unfold k1_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The proof data of the pipeline on core c: the arrays as the region finds them; after the body at point t the
    input's buffer at its block and the output's at `out` of it; nothing kept, nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => out (iblk V c 0 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = out (iblk V c 0 t) := by dsimp only [dat]

theorem before_0 (c : Dev nD) (t : Fin cfg1.N) (d) : (dat V c).before 0 t d = iblk V c 0 t :=
  before_in_of V (dat V c) (A_eq V c 0) (after_0 V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's memref holds its block, so `sound_kernel` applies; the invariant and the
    core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.Region2.lean ====
/-
  Region 2 of @main, the matrix product accumulated over the contracted axis: what its body leaves in its output
  window's staging buffer and in the scratch accumulator it carries from point to point, and the body obligation of
  its pipeline, at any float instance.

  The grid is 8 x 4 x 2 in row-major order, so point t has last coordinate t mod 2: the K-slice. A pair of points
  2u, 2u+1 shares its output block (i, j). At the even point the body zeroes the scratch, adds the product of the two
  input blocks of the first K-slice, and stores nothing into the output window (idle there, not written back). At
  the odd point it adds the product of the second K-slice's blocks to what the even point left and copies the scratch
  into the output window, which is then written back. So the scratch after an even point t is 0-block + A_t B_tᵀ, and
  after an odd point t it is (that of t - 1) + A_t B_tᵀ: a closed form with no recursion, period 2.
-/
import proofs.«101090_j15023795602200_2_alg».proof.Proof.Gen.KernelIdeal.Launch
import proofs.«101090_j15023795602200_2_alg».proof.Proof.Gen.KernelIdeal.Skeleton
import proofs.«101090_j15023795602200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Region2
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    entry contents and whose body leaves the block in place. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The rectangles the body loads and stores through: each is its whole buffer. -/
abbrev wholeA : Rect S1024x2048 := Rect.unit (s := S1024x2048) ![0, 0] S1024x2048.size inb_S1024x2048_S1024x2048_0_0
abbrev wholeC : Rect S1024x1024 := Rect.unit (s := S1024x1024) ![0, 0] S1024x1024.size inb_S1024x1024_S1024x1024_0_0

theorem off_zero : (![0, 0] : Fin 2 → Nat) = fun _ => 0 := by
  funext a; fin_cases a <;> rfl

/-! ## The two control cases over the grid -/

/-- The first conditional's test, as the body computes it: the K-slice is the first. -/
def isFirst (i : grid2.Coords) : Prop :=
  Scalar.cmpi .ne (Scalar.extui (Scalar.cmpi .eq (BitVec.ofNat 32 (i 2).val) 0#32)) 0#32 = 1#1

instance (i : grid2.Coords) : Decidable (isFirst i) := by unfold isFirst; infer_instance

/-- The first test holds exactly at the even points, -/
theorem isFirst_iff : ∀ t : Fin cfg2.N, isFirst (grid2.coords t) ↔ t.val % 2 = 0 :=
  (by decide +kernel : ∀ t : Fin grid2.N, isFirst (grid2.coords t) ↔ t.val % 2 = 0)
/-- and the second (the K-slice is the last) exactly at the odd ones. -/
theorem isLast_iff : ∀ t : Fin cfg2.N, k2_cond2 (grid2.coords t) = 1#1 ↔ t.val % 2 = 1 :=
  (by decide +kernel : ∀ t : Fin grid2.N, k2_cond2 (grid2.coords t) = 1#1 ↔ t.val % 2 = 1)

/-! ## The body's triple in each case -/

/-- One store through the whole buffer, read back, is its payload. -/
theorem read_writes_whole (v : View sig .tc .vmem S1024x1024 .f32) (f : v.ty.Contents (Elt F)) (p : S1024x1024.Idx → Elt F .f32) :
    v.read (Elt F) (v.writes (Elt F) f [⟨wholeC, p⟩]) = p := by
  rw [View.read_writes_eq_canon _ _ _ (View.cover_of_tiled [⟨wholeC, p⟩] S1024x1024.size (by rfl))]
  exact View.canon_unit_zero off_zero _ _

/-- Two stores through the whole buffer, read back, are the last one's payload. -/
theorem read_writes_whole₂ (v : View sig .tc .vmem S1024x1024 .f32) (f : v.ty.Contents (Elt F)) (p q : S1024x1024.Idx → Elt F .f32) :
    v.read (Elt F) (v.writes (Elt F) f [⟨wholeC, p⟩, ⟨wholeC, q⟩]) = p := by
  rw [View.read_writes_eq_canon _ _ _ (fun y => by
    obtain ⟨pc, hpc, hy⟩ := View.cover_of_tiled [(⟨wholeC, p⟩ : View.Piece (Elt F) S1024x1024 .f32)] S1024x1024.size (by rfl) y
    rw [List.mem_singleton] at hpc; subst hpc
    exact ⟨_, List.Mem.head _, hy⟩)]
  exact View.canon_cons_unit_zero off_zero _ _ _

set_option maxHeartbeats 1000000 in
/-- AT A LAST K-SLICE (an odd point): the scratch at s, the inputs at xa and xb, the output's buffer at anything —
    the body leaves the scratch and the output's buffer both at s + xa xbᵀ (`k2_pay2 s xa xb`). -/
theorem sound_kernel_last (c : Dev nD) (E : Set ℕ) (i : grid2.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc1 : ¬ isFirst i) (hc2 : k2_cond2 i = 1#1)
    (xa : Vec F S1024x2048 .bf16) (xb : Vec F S1024x2048 .bf16) (s : Vec F S1024x1024 .f32) (K : PUnit → sProp 𝕄) :
    iprop(owns (c : Thread nD τ) arg3 fullShare xa ∗ owns (c : Thread nD τ) arg4 fullShare xb
        ∗ (∃ d, owns (c : Thread nD τ) arg5 fullShare d) ∗ owns (c : Thread nD τ) arg6 fullShare s
        ∗ (iprop(owns (c : Thread nD τ) arg3 fullShare xa ∗ owns (c : Thread nD τ) arg4 fullShare xb
            ∗ owns (c : Thread nD τ) arg5 fullShare (k2_pay2 s xa xb) ∗ owns (c : Thread nD τ) arg6 fullShare (k2_pay2 s xa xb)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  unfold isFirst at hc1
  sl_exec (disch := first | exact hc1 | exact hc2)
  sl_step
  iapply Hk
  isplitl [H3]
  · iexists f3; isplitr; · ipureintro; rfl
    iexact H3
  isplitl [H4]
  · iexists f4; isplitr; · ipureintro; rfl
    iexact H4
  sl_unfold_words
  isplitl [H5]
  · iexists _; isplitr
    swap; · iexact H5
    ipureintro
    rw [read_writes_whole, View.readCov_unit_zero _ off_zero]
    simp only [View.readAt_eq_ld, View.ld_unit_zero (S := S1024x1024) off_zero, View.ld_unit_zero (S := S1024x2048) off_zero]
  iexists _; isplitr
  swap; · iexact H6
  ipureintro
  rw [read_writes_whole]
  simp only [View.readAt_eq_ld, View.ld_unit_zero (S := S1024x1024) off_zero, View.ld_unit_zero (S := S1024x2048) off_zero]

set_option maxHeartbeats 1000000 in
/-- AT A FIRST K-SLICE (an even point): the scratch at anything, the inputs at xa and xb, the output's buffer at o —
    the body leaves the scratch at 0-block + xa xbᵀ (`k2_pay2 k2_pay1 xa xb`) and the output's buffer as it was. -/
theorem sound_kernel_first (c : Dev nD) (E : Set ℕ) (i : grid2.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc1 : isFirst i) (hc2 : ¬ k2_cond2 i = 1#1)
    (xa : Vec F S1024x2048 .bf16) (xb : Vec F S1024x2048 .bf16) (o : Vec F S1024x1024 .f32) (K : PUnit → sProp 𝕄) :
    iprop(owns (c : Thread nD τ) arg3 fullShare xa ∗ owns (c : Thread nD τ) arg4 fullShare xb
        ∗ owns (c : Thread nD τ) arg5 fullShare o ∗ (∃ d, owns (c : Thread nD τ) arg6 fullShare d)
        ∗ (iprop(owns (c : Thread nD τ) arg3 fullShare xa ∗ owns (c : Thread nD τ) arg4 fullShare xb
            ∗ owns (c : Thread nD τ) arg5 fullShare o ∗ owns (c : Thread nD τ) arg6 fullShare (k2_pay2 (k2_pay1 (F := F)) xa xb)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  unfold isFirst at hc1
  sl_exec (disch := first | exact hc1 | exact hc2)
  sl_step
  iapply Hk
  sl_unfold_words
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [read_writes_whole₂, View.readCov_unit_zero _ off_zero]
  simp only [View.readAt_eq_ld, View.ld_unit_zero (S := S1024x2048) off_zero]

/-! ## The accumulator, the invariant, the proof data -/

/-- The scratch accumulator as a memref. -/
abbrev scr : Memref sig .tc .vmem S1024x1024 .f32 := Memref.whole cc2_scratch0

/-- What the scratch holds after a first K-slice's point: the zero block plus that slice's product. -/
def accFirst (c : Dev nD) (t : Fin cfg2.N) : Vec F S1024x1024 .f32 :=
  k2_pay2 (k2_pay1 (F := F)) (iblk V c 0 t) (iblk V c 1 t)

/-- What the scratch holds after point t: at an even point the first slice's; at an odd point that of the point before
    plus this slice's product. -/
def accAt (c : Dev nD) (t : Fin cfg2.N) : Vec F S1024x1024 .f32 :=
  if t.val % 2 = 0 then accFirst V c t
  else k2_pay2 (accFirst V c ⟨t.val - 1, by have := t.isLt; omega⟩) (iblk V c 0 t) (iblk V c 1 t)

/-- The scoped rest of the region with S in the scratch's place: the other two regions' eight staging buffers at
    anything, then S. -/
def withOthers (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ S)

/-- The class invariant, the scratch as a memref owned at some contents. -/
theorem PhiA_eq (c : Dev nD) :
    (Pipeline.ΦA spec2 c : sProp 𝕄) = iprop(withOthers c iprop(∃ d, owns (c : Thread nD τ) scr fullShare d) ∗ (∃ r, prngReg c r)) := by
  unfold Pipeline.ΦA withOthers; rw [scopedRest2_eq]; simp only [scr, owns_whole]; try rfl

/-- The region's invariant before position n: before the first point the class's (the scratch at anything);
    afterwards the scratch at what the point before left. -/
def PhiS (c : Dev nD) : (n : ℕ) → n ≤ cfg2.N → sProp 𝕄
  | 0, _ => Pipeline.ΦA spec2 c
  | n + 1, hn => iprop(withOthers c (owns (c : Thread nD τ) scr fullShare (accAt V c ⟨n, hn⟩)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(withOthers c (owns (c : Thread nD τ) scr fullShare (accAt V c ⟨n, hn⟩)) ∗ (∃ r, prngReg c r)) := rfl

theorem PhiS_pos (c : Dev nD) (n : ℕ) (h : n ≤ cfg2.N) (hz : n ≠ 0) :
    PhiS V c n h = iprop(withOthers c (owns (c : Thread nD τ) scr fullShare (accAt V c ⟨n - 1, by omega⟩)) ∗ (∃ r, prngReg c r)) := by
  cases n with
  | zero => exact absurd rfl hz
  | succ n => rfl

/-- The proof data of the pipeline on core c: the arrays as the region finds them; after the body at point t each
    input's buffer at its block and the output's at the accumulator; the invariant carries the scratch; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => accAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = accAt V c t := by dsimp only [dat]

theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d

/-- The output window is idle exactly at the even points, -/
theorem idle_iff : ∀ t : Fin cfg2.N, idle2 2 (grid2.coords t) = true ↔ t.val % 2 = 0 :=
  (by decide +kernel : ∀ t : Fin grid2.N, idle2 2 (grid2.coords t) = true ↔ t.val % 2 = 0)

/-- What the body is called with at point t. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What it returns at a first K-slice: the output's buffer as it was handed over; -/
def bodyPostFirst (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ (∃ d, owns (c : Thread nD τ) (st2_2 t) fullShare ((dat V c).before 2 t d)))

/-- and at a last K-slice: the output's buffer at the accumulator. -/
def bodyPostLast (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem accAt_even (c : Dev nD) (t : Fin cfg2.N) (h : t.val % 2 = 0) : accAt V c t = accFirst V c t := by
  unfold accAt; rw [if_pos h]
theorem accAt_odd (c : Dev nD) (t : Fin cfg2.N) (h : ¬ t.val % 2 = 0) :
    accAt V c t = k2_pay2 (accFirst V c ⟨t.val - 1, by have := t.isLt; omega⟩) (iblk V c 0 t) (iblk V c 1 t) := by
  unfold accAt; rw [if_neg h]

set_option maxHeartbeats 1000000 in
/-- The body at an even point: whatever the scratch held, it ends at the first slice's accumulator. -/
theorem sound_body_first (c : Dev nD) (t : Fin cfg2.N) (hpar : t.val % 2 = 0) :
    bodyPre V c t ⊢ wp frame (wpE (defs₀ (F := F)) Variants.none c none) Set.univ (bodyAt2 t) (fun _ => bodyPostFirst V c t) := by
  unfold bodyPre bodyPostFirst bodyAt2
  simp only [before_0, before_1]
  rw [Phi_castSucc, show (dat V c).Φ t.succ = PhiS V c (t.val + 1) t.isLt from rfl, PhiS_succ,
    show (dat V c).owesAt () t.succ = (dat V c).owesAt () t.castSucc from rfl, after_0, after_1,
    show (⟨t.val, t.isLt⟩ : Fin cfg2.N) = t from rfl, accAt_even V c t hpar]
  have hstart : PhiS V c t.val (Nat.le_of_lt t.isLt) ⊢ iprop(withOthers c iprop(∃ d, owns (c : Thread nD τ) scr fullShare d) ∗ (∃ r, prngReg c r)) := by
    by_cases hz : t.val = 0
    · rw [PhiS_zero V c _ _ hz, PhiA_eq]
    · rw [PhiS_pos V c _ _ hz]; unfold withOthers
      iintro ⟨⟨A1, A2, A3, A4, A5, A6, A7, A8, HS⟩, Hg⟩
      isplitr [Hg]
      swap; · iexact Hg
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexists _; iexact HS
  iintro ⟨HΦ, Ho, ⟨%d0, H0⟩, ⟨%d1, H1⟩, ⟨%d2, H2⟩⟩
  ihave HΦ' := hstart $$ HΦ
  unfold withOthers
  icases HΦ' with ⟨⟨A1, A2, A3, A4, A5, A6, A7, A8, HS⟩, Hg⟩
  iapply (sound_kernel_first c Set.univ _ _ _ _ _ _ _ _ _ ((isFirst_iff t).mpr hpar) (fun h => absurd ((isLast_iff t).mp h) (by omega))
    (iblk V c 0 t) (iblk V c 1 t) ((dat V c).before 2 t d2) _)
  isplitl [H0]; · iexact H0
  isplitl [H1]; · iexact H1
  isplitl [H2]; · iexact H2
  isplitl [HS]; · iexact HS
  iintro ⟨H0, H1, H2, HS⟩
  isplitl [A1 A2 A3 A4 A5 A6 A7 A8 HS Hg]
  · isplitr [Hg]
    swap; · iexact Hg
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  isplitl [Ho]; · iexact Ho
  isplitl [H0]; · iexact H0
  isplitl [H1]; · iexact H1
  iexists _; iexact H2

set_option maxHeartbeats 1000000 in
/-- The body at an odd point: the scratch at the point before's accumulator ends, with the output's buffer, at this
    point's. -/
theorem sound_body_last (c : Dev nD) (t : Fin cfg2.N) (hpar : ¬ t.val % 2 = 0) :
    bodyPre V c t ⊢ wp frame (wpE (defs₀ (F := F)) Variants.none c none) Set.univ (bodyAt2 t) (fun _ => bodyPostLast V c t) := by
  unfold bodyPre bodyPostLast bodyAt2
  simp only [before_0, before_1]
  have hz : t.val ≠ 0 := fun h => hpar (by rw [h])
  have hprev : (t.val - 1) % 2 = 0 := by have := t.isLt; omega
  rw [Phi_castSucc, PhiS_pos V c _ _ hz, show (dat V c).Φ t.succ = PhiS V c (t.val + 1) t.isLt from rfl, PhiS_succ,
    show (dat V c).owesAt () t.succ = (dat V c).owesAt () t.castSucc from rfl, after_0, after_1, after_2,
    show (⟨t.val, t.isLt⟩ : Fin cfg2.N) = t from rfl, accAt_odd V c t hpar, accAt_even V c ⟨t.val - 1, _⟩ hprev]
  unfold withOthers
  iintro ⟨⟨⟨A1, A2, A3, A4, A5, A6, A7, A8, HS⟩, Hg⟩, Ho, ⟨%d0, H0⟩, ⟨%d1, H1⟩, ⟨%d2, H2⟩⟩
  iapply (sound_kernel_last c Set.univ _ _ _ _ _ _ _ _ _ (fun h => hpar ((isFirst_iff t).mp h)) ((isLast_iff t).mpr (by omega))
    (iblk V c 0 t) (iblk V c 1 t) (accFirst V c ⟨t.val - 1, by have := t.isLt; omega⟩) _)
  isplitl [H0]; · iexact H0
  isplitl [H1]; · iexact H1
  isplitl [H2]; · iexists _; iexact H2
  isplitl [HS]; · iexact HS
  iintro ⟨H0, H1, H2, HS⟩
  isplitl [A1 A2 A3 A4 A5 A6 A7 A8 HS Hg]
  · isplitr [Hg]
    swap; · iexact Hg
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  by_cases hpar : t.val % 2 = 0
  · have hidle : idle2 2 (grid2.coords t) = true := (idle_iff t).mpr hpar
    have hflush : (cfg2.win 2).flush t = false := by
      cases h : (cfg2.win 2).flush t with
      | false => rfl
      | true => exact absurd ((flush2_2 t).mp h) (by omega)
    simp only [hidle, hflush]
    exact sound_body_first V c t hpar
  · have hidle : idle2 2 (grid2.coords t) = false := by
      cases h : idle2 2 (grid2.coords t) with
      | false => rfl
      | true => exact absurd ((idle_iff t).mp h) hpar
    simp only [hidle]
    exact sound_body_last V c t hpar

/-- Before the first point the invariant is the class's. -/
theorem Phi_in (c : Dev nD) : Pipeline.ΦA spec2 c ⊢ (dat V c).Φ 0 := by
  rw [show (dat V c).Φ 0 = PhiS V c 0 (Nat.zero_le _) from rfl, PhiS_zero V c 0 _ rfl]

/-- After the last point it gives the class's back: the accumulator's contents are forgotten. -/
theorem Phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 64 := N_2; omega), PhiA_eq]
  unfold withOthers
  iintro ⟨⟨A1, A2, A3, A4, A5, A6, A7, A8, HS⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexists _; iexact HS

end Cert.KernelIdeal.Region2

end
-- ==== Proof.RunMain.lean ====
/-
  The run of the kernel program through its five items, at any float instance.

  The program is: a reshape of the activations into a matrix; region 0, which quantises and dequantises that matrix
  into a second array; region 1, which does the same to the weights; region 2, the product of the two results; and a
  reshape of the product into the result's shape. Between two items every unscoped buffer of a core holds known
  contents: the launch memory, then what the reshape writes, then, region by region, the region's arrays at what its
  pipeline's write-backs leave and every other buffer as the region found it, then what the last reshape writes. No
  item writes an argument array (region 1 reads the weights through an input window, which leaves its array as
  entered), so the contents at an argument walk back to the launch memory. Each region is entered from the state
  "every unscoped buffer at the boundary's contents, the generator register at some state, nothing owed" and leaves
  that state at the next boundary's contents. The run chains the five items from the launch, and the final memory is
  read against the last boundary's contents: the result buffer holds the last reshape of what region 2 leaves, and
  both arguments are as launched.
-/
import proofs.«101090_j15023795602200_2_alg».proof.Proof.Region0
import proofs.«101090_j15023795602200_2_alg».proof.Proof.Region1
import proofs.«101090_j15023795602200_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunMain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of the program -/

/-- Core c's buffers at launch. -/
abbrev W0 : Dev nD → Valuation τ sig (Elt F) := fun c b => (s₀ m ρ).mem ((c : Dev nD), b)
/-- After the first reshape: what region 0 is entered from. -/
abbrev W1 : Dev nD → Valuation τ sig (Elt F) := fun c => StableHlo.after hostOps0 (W0 m ρ c)
/-- The same, read at the TensorCore's references. -/
abbrev E1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (Region0.dat (E1 m ρ) c).arrAt w cfg0.N
theorem W2_arr (c : Dev nD) (w : Fin cfg0.W) :
    W2 m ρ c (Proc.devRef .tc (Pipeline.arrRef spec0 w)) = (Region0.dat (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references: what region 1 is entered from. -/
abbrev E2 : (c : Dev nD) → (b : Ref sig .tc) → Buf (Elt F) ((c : Thread nD τ).loc b) := fun c b => W2 m ρ c b
theorem hF0 (c : Dev nD) (w : Fin cfg0.W) : (Region0.dat (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (Region1.dat (E2 m ρ) c).arrAt w cfg1.N
theorem W3_arr (c : Dev nD) (w : Fin cfg1.W) :
    W3 m ρ c (Proc.devRef .tc (Pipeline.arrRef spec1 w)) = (Region1.dat (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references: what region 2 is entered from. -/
abbrev E3 : (c : Dev nD) → (b : Ref sig .tc) → Buf (Elt F) ((c : Thread nD τ).loc b) := fun c b => W3 m ρ c b
theorem hF1 (c : Dev nD) (w : Fin cfg1.W) : (Region1.dat (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- At region 2's exit. -/
def W4 (c : Dev nD) : Valuation τ sig (Elt F) :=
  Pipeline.withArrays spec2 c (W3 m ρ c) fun w => (Region2.dat (E3 m ρ) c).arrAt w cfg2.N
theorem W4_arr (c : Dev nD) (w : Fin cfg2.W) :
    W4 m ρ c (Proc.devRef .tc (Pipeline.arrRef spec2 w)) = (Region2.dat (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same, read at the TensorCore's references. -/
abbrev E4 : (c : Dev nD) → (b : Ref sig .tc) → Buf (Elt F) ((c : Thread nD τ).loc b) := fun c b => W4 m ρ c b
theorem hF2 (c : Dev nD) (w : Fin cfg2.W) : (Region2.dat (E3 m ρ) c).arrAt w cfg2.N = E4 m ρ c (Pipeline.arrRef spec2 w) :=
  (W4_arr m ρ c w).symm
theorem hrest2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- After the last reshape: the buffers at the return. -/
abbrev W5 : Dev nD → Valuation τ sig (Elt F) := fun c => StableHlo.after hostOps3 (W4 m ρ c)

/-! ### The arguments end as launched -/

/-- The first reshape writes its result only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- The last reshape writes its result only. -/
theorem W5_of_ne (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The activations: no reshape writes them and no region has them as an array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- The weights: region 1 reads them through an input window, which leaves its array as entered. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) :=
        (W3_arr m ρ c 0).trans (((Region1.dat (E2 m ρ) c).arrAt_in 0 rfl _).trans (Region1.A_eq (E2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (E1 m ρ) c
  | ⟨1, _⟩ => fun c => Region1.dat (E2 m ρ) c
  | ⟨2, _⟩ => fun c => Region2.dat (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, at
    nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the contents at the return, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- applying a library lemma stated over a pinned configuration unifies with the printed one only when unification may
-- unfold plain definitions in a metavariable's type
set_option backward.isDefEq.respectTransparency.types false in
/-- REGION 0 over the thread state: entered from every unscoped buffer at its entry contents and left at its exit
    contents. Its arrays are split out of the unscoped buffers and put back at what the pipeline leaves; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun w => Region0.A_eq (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration unifies with the printed one only when unification may
-- unfold plain definitions in a metavariable's type
set_option backward.isDefEq.respectTransparency.types false in
/-- REGION 1 over the thread state: entered from every unscoped buffer at its entry contents and left at its exit
    contents. Its arrays are split out of the unscoped buffers and put back at what the pipeline leaves; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun w => Region1.A_eq (E2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration unifies with the printed one only when unification may
-- unfold plain definitions in a metavariable's type
set_option backward.isDefEq.respectTransparency.types false in
/-- REGION 2 over the thread state: entered from every unscoped buffer at its entry contents and left at its exit
    contents. Its arrays are split out of the unscoped buffers and put back at what the pipeline leaves; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun w => Region2.A_eq (E3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m ρ 2 c).Φ 0 from Region2.Phi_in (E3 m ρ) c)
    unfold Pipeline.ΦA
    iintro ⟨Hp, -, Hr⟩
    isplitl [Hr]; · iexact Hr
    iexact Hp
  hout c := by
    refine BIBase.Entails.trans (show (pdats m ρ 2 c).Φ (Fin.last _) ⊢ (Pipeline.ΦA spec2 c : sProp 𝕄) from Region2.Phi_out (E3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five items in order: the reshape, the three regions, the reshape. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- The program is the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds the result buffer at the contents at the return and both argument arrays as
    launched. -/
theorem run_main : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ (∃ r, prngReg c r) ∗ ∃ W, owes (c : Thread nD τ) (0 : CellTallies nD τ sig Unit) W)
        ⊢ (iprop((StableHlo.held (c : Thread nD τ) (Pipeline.ucRefs τ sig) (W5 m ρ c) ∗ ∃ r, prngReg c r)
          ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c)⟩)

/-- THE FRAME: the run with the result's value forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.RunMain

end
-- ==== Proof.WordRegion0.lean ====
/-
  Region 0 of @main, the kernel that quantises and dequantises the activations block by block: what its body leaves in its
  output window's staging buffer, and the body obligation of its pipeline, at any float instance.

  A grid point t owns rows 128 t .. 128 t + 127 of the array: the input window's block is those rows, fetched at every
  point, and the output window's block is the same rows of the result, written back at every point. The body loads
  the whole input block, computes, and stores the whole output block in one store; it also loads the output buffer
  once before storing (the value is never used), so the output buffer is handed over at any contents. Nothing is kept
  between points: the region's invariant is the scoped rest and the generator register, untouched.
-/
import proofs.«101090_j15023795602200_2_alg».proof.Proof.Gen.Kernel.Launch
import proofs.«101090_j15023795602200_2_alg».proof.Proof.Gen.Kernel.Skeleton
import proofs.«101090_j15023795602200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The one rectangle the body loads and stores through: the whole [128, 4096] block. -/
abbrev whole : Rect S128x4096 := Rect.unit (s := S128x4096) ![0, 0] S128x4096.size inb_S128x4096_S128x4096_0_0

/-- The value the body stores, from the loaded input block. -/
def stored (v0 : Vec F S128x4096 .f32) : FVec F S128x4096 .bf16 :=
  k0_pay1 (k0_pay4 v0) (k0_pay6 v0) (k0_pay7 v0) (k0_pay8 v0) (k0_pay9 v0) (k0_pay10 v0) (k0_pay11 v0) (k0_pay12 v0)

/-- The output window's staging buffer after the body: its one store read back. -/
def out (x0 : Vec F S128x4096 .f32) : Vec F S128x4096 .bf16 :=
  View.canon [⟨whole, stored (View.ld x0 whole)⟩]

/-- The store covers the buffer. -/
theorem cover (p0 : Vec F S128x4096 .bf16) (y : S128x4096.Idx) :
    ∃ pc ∈ ([⟨whole, p0⟩] : List (View.Piece (Elt F) S128x4096 .bf16)), y ∈ pc.1.set :=
  View.cover_of_tiled [⟨whole, p0⟩] S128x4096.size (by rfl) y

set_option maxHeartbeats 1000000 in
/-- The body on whole staging memrefs, the input's at contents x0 and the output's at anything, runs to the
    continuation holding the input's as it was and the output's at `out x0`. -/
theorem sound_kernel (c : Dev nD) (E : Set ℕ) (i : grid0.Coords) (arg1 : Memref sig .tc .vmem S128x4096 .f32) (harg1 : arg1.IsWhole)
    (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The proof data of the pipeline on core c: the arrays as the region finds them; after the body at point t the
    input's buffer at its block and the output's at `out` of it; nothing kept, nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = out (iblk V c 0 t) := by dsimp only [dat]

theorem before_0 (c : Dev nD) (t : Fin cfg0.N) (d) : (dat V c).before 0 t d = iblk V c 0 t :=
  before_in_of V (dat V c) (A_eq V c 0) (after_0 V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's memref holds its block, so `sound_kernel` applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.WordRegion1.lean ====
/-
  Region 1 of @main, the kernel that quantises and dequantises the weights block by block: what its body leaves in its
  output window's staging buffer, and the body obligation of its pipeline, at any float instance.

  A grid point t owns rows 128 t .. 128 t + 127 of the array: the input window's block is those rows, fetched at every
  point, and the output window's block is the same rows of the result, written back at every point. The body loads
  the whole input block, computes, and stores the whole output block in one store; it also loads the output buffer
  once before storing (the value is never used), so the output buffer is handed over at any contents. Nothing is kept
  between points: the region's invariant is the scoped rest and the generator register, untouched.
-/
import proofs.«101090_j15023795602200_2_alg».proof.Proof.Gen.Kernel.Launch
import proofs.«101090_j15023795602200_2_alg».proof.Proof.Gen.Kernel.Skeleton
import proofs.«101090_j15023795602200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before_in_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The one rectangle the body loads and stores through: the whole [128, 4096] block. -/
abbrev whole : Rect S128x4096 := Rect.unit (s := S128x4096) ![0, 0] S128x4096.size inb_S128x4096_S128x4096_0_0

/-- The value the body stores, from the loaded input block. -/
def stored (v0 : Vec F S128x4096 .f32) : FVec F S128x4096 .bf16 :=
  k1_pay1 (k1_pay3 v0) (k1_pay5 v0) (k1_pay6 v0) (k1_pay7 v0) (k1_pay8 v0) (k1_pay9 v0) (k1_pay10 v0) (k1_pay11 v0) (Scalar.ofBits .f32 0x40600000#32)

/-- The output window's staging buffer after the body: its one store read back. -/
def out (x0 : Vec F S128x4096 .f32) : Vec F S128x4096 .bf16 :=
  View.canon [⟨whole, stored (View.ld x0 whole)⟩]

/-- The store covers the buffer. -/
theorem cover (p0 : Vec F S128x4096 .bf16) (y : S128x4096.Idx) :
    ∃ pc ∈ ([⟨whole, p0⟩] : List (View.Piece (Elt F) S128x4096 .bf16)), y ∈ pc.1.set :=
  View.cover_of_tiled [⟨whole, p0⟩] S128x4096.size (by rfl) y

set_option maxHeartbeats 1000000 in
/-- The body on whole staging memrefs, the input's at contents x0 and the output's at anything, runs to the
    continuation holding the input's as it was and the output's at `out x0`. -/
theorem sound_kernel (c : Dev nD) (E : Set ℕ) (i : grid1.Coords) (arg1 : Memref sig .tc .vmem S128x4096 .f32) (harg1 : arg1.IsWhole)
    (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc1__quant_kernel i arg1 harg1 arg2 harg2) K := by
  simp only [cc1__quant_kernel_eq_skeleton]; unfold cc1__quant_kernel_skel
  simp only [k1_part1_eq_skeleton]; unfold k1_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The proof data of the pipeline on core c: the arrays as the region finds them; after the body at point t the
    input's buffer at its block and the output's at `out` of it; nothing kept, nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => out (iblk V c 0 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = out (iblk V c 0 t) := by dsimp only [dat]

theorem before_0 (c : Dev nD) (t : Fin cfg1.N) (d) : (dat V c).before 0 t d = iblk V c 0 t :=
  before_in_of V (dat V c) (A_eq V c 0) (after_0 V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's memref holds its block, so `sound_kernel` applies; the invariant and the
    core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.WordRegion2.lean ====
/-
  Region 2 of @main, the matrix product accumulated over the contracted axis: what its body leaves in its output
  window's staging buffer and in the scratch accumulator it carries from point to point, and the body obligation of
  its pipeline, at any float instance.

  The grid is 8 x 4 x 2 in row-major order, so point t has last coordinate t mod 2: the K-slice. A pair of points
  2u, 2u+1 shares its output block (i, j). At the even point the body zeroes the scratch, adds the product of the two
  input blocks of the first K-slice, and stores nothing into the output window (idle there, not written back). At
  the odd point it adds the product of the second K-slice's blocks to what the even point left and copies the scratch
  into the output window, which is then written back. So the scratch after an even point t is 0-block + A_t B_tᵀ, and
  after an odd point t it is (that of t - 1) + A_t B_tᵀ: a closed form with no recursion, period 2.
-/
import proofs.«101090_j15023795602200_2_alg».proof.Proof.Gen.Kernel.Launch
import proofs.«101090_j15023795602200_2_alg».proof.Proof.Gen.Kernel.Skeleton
import proofs.«101090_j15023795602200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Region2
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    entry contents and whose body leaves the block in place. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The rectangles the body loads and stores through: each is its whole buffer. -/
abbrev wholeA : Rect S1024x2048 := Rect.unit (s := S1024x2048) ![0, 0] S1024x2048.size inb_S1024x2048_S1024x2048_0_0
abbrev wholeC : Rect S1024x1024 := Rect.unit (s := S1024x1024) ![0, 0] S1024x1024.size inb_S1024x1024_S1024x1024_0_0

theorem off_zero : (![0, 0] : Fin 2 → Nat) = fun _ => 0 := by
  funext a; fin_cases a <;> rfl

/-! ## The two control cases over the grid -/

/-- The first conditional's test, as the body computes it: the K-slice is the first. -/
def isFirst (i : grid2.Coords) : Prop :=
  Scalar.cmpi .ne (Scalar.extui (Scalar.cmpi .eq (BitVec.ofNat 32 (i 2).val) 0#32)) 0#32 = 1#1

instance (i : grid2.Coords) : Decidable (isFirst i) := by unfold isFirst; infer_instance

/-- The first test holds exactly at the even points, -/
theorem isFirst_iff : ∀ t : Fin cfg2.N, isFirst (grid2.coords t) ↔ t.val % 2 = 0 :=
  (by decide +kernel : ∀ t : Fin grid2.N, isFirst (grid2.coords t) ↔ t.val % 2 = 0)
/-- and the second (the K-slice is the last) exactly at the odd ones. -/
theorem isLast_iff : ∀ t : Fin cfg2.N, k2_cond2 (grid2.coords t) = 1#1 ↔ t.val % 2 = 1 :=
  (by decide +kernel : ∀ t : Fin grid2.N, k2_cond2 (grid2.coords t) = 1#1 ↔ t.val % 2 = 1)

/-! ## The body's triple in each case -/

/-- One store through the whole buffer, read back, is its payload. -/
theorem read_writes_whole (v : View sig .tc .vmem S1024x1024 .f32) (f : v.ty.Contents (Elt F)) (p : S1024x1024.Idx → Elt F .f32) :
    v.read (Elt F) (v.writes (Elt F) f [⟨wholeC, p⟩]) = p := by
  rw [View.read_writes_eq_canon _ _ _ (View.cover_of_tiled [⟨wholeC, p⟩] S1024x1024.size (by rfl))]
  exact View.canon_unit_zero off_zero _ _

/-- Two stores through the whole buffer, read back, are the last one's payload. -/
theorem read_writes_whole₂ (v : View sig .tc .vmem S1024x1024 .f32) (f : v.ty.Contents (Elt F)) (p q : S1024x1024.Idx → Elt F .f32) :
    v.read (Elt F) (v.writes (Elt F) f [⟨wholeC, p⟩, ⟨wholeC, q⟩]) = p := by
  rw [View.read_writes_eq_canon _ _ _ (fun y => by
    obtain ⟨pc, hpc, hy⟩ := View.cover_of_tiled [(⟨wholeC, p⟩ : View.Piece (Elt F) S1024x1024 .f32)] S1024x1024.size (by rfl) y
    rw [List.mem_singleton] at hpc; subst hpc
    exact ⟨_, List.Mem.head _, hy⟩)]
  exact View.canon_cons_unit_zero off_zero _ _ _

set_option maxHeartbeats 1000000 in
/-- AT A LAST K-SLICE (an odd point): the scratch at s, the inputs at xa and xb, the output's buffer at anything —
    the body leaves the scratch and the output's buffer both at s + xa xbᵀ (`k2_pay2 s xa xb`). -/
theorem sound_kernel_last (c : Dev nD) (E : Set ℕ) (i : grid2.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc1 : ¬ isFirst i) (hc2 : k2_cond2 i = 1#1)
    (xa : Vec F S1024x2048 .bf16) (xb : Vec F S1024x2048 .bf16) (s : Vec F S1024x1024 .f32) (K : PUnit → sProp 𝕄) :
    iprop(owns (c : Thread nD τ) arg3 fullShare xa ∗ owns (c : Thread nD τ) arg4 fullShare xb
        ∗ (∃ d, owns (c : Thread nD τ) arg5 fullShare d) ∗ owns (c : Thread nD τ) arg6 fullShare s
        ∗ (iprop(owns (c : Thread nD τ) arg3 fullShare xa ∗ owns (c : Thread nD τ) arg4 fullShare xb
            ∗ owns (c : Thread nD τ) arg5 fullShare (k2_pay2 s xa xb) ∗ owns (c : Thread nD τ) arg6 fullShare (k2_pay2 s xa xb)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  unfold isFirst at hc1
  sl_exec (disch := first | exact hc1 | exact hc2)
  sl_step
  iapply Hk
  isplitl [H3]
  · iexists f3; isplitr; · ipureintro; rfl
    iexact H3
  isplitl [H4]
  · iexists f4; isplitr; · ipureintro; rfl
    iexact H4
  sl_unfold_words
  isplitl [H5]
  · iexists _; isplitr
    swap; · iexact H5
    ipureintro
    rw [read_writes_whole, View.readCov_unit_zero _ off_zero]
    simp only [View.readAt_eq_ld, View.ld_unit_zero (S := S1024x1024) off_zero, View.ld_unit_zero (S := S1024x2048) off_zero]
  iexists _; isplitr
  swap; · iexact H6
  ipureintro
  rw [read_writes_whole]
  simp only [View.readAt_eq_ld, View.ld_unit_zero (S := S1024x1024) off_zero, View.ld_unit_zero (S := S1024x2048) off_zero]

set_option maxHeartbeats 1000000 in
/-- AT A FIRST K-SLICE (an even point): the scratch at anything, the inputs at xa and xb, the output's buffer at o —
    the body leaves the scratch at 0-block + xa xbᵀ (`k2_pay2 k2_pay1 xa xb`) and the output's buffer as it was. -/
theorem sound_kernel_first (c : Dev nD) (E : Set ℕ) (i : grid2.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc1 : isFirst i) (hc2 : ¬ k2_cond2 i = 1#1)
    (xa : Vec F S1024x2048 .bf16) (xb : Vec F S1024x2048 .bf16) (o : Vec F S1024x1024 .f32) (K : PUnit → sProp 𝕄) :
    iprop(owns (c : Thread nD τ) arg3 fullShare xa ∗ owns (c : Thread nD τ) arg4 fullShare xb
        ∗ owns (c : Thread nD τ) arg5 fullShare o ∗ (∃ d, owns (c : Thread nD τ) arg6 fullShare d)
        ∗ (iprop(owns (c : Thread nD τ) arg3 fullShare xa ∗ owns (c : Thread nD τ) arg4 fullShare xb
            ∗ owns (c : Thread nD τ) arg5 fullShare o ∗ owns (c : Thread nD τ) arg6 fullShare (k2_pay2 (k2_pay1 (F := F)) xa xb)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  unfold isFirst at hc1
  sl_exec (disch := first | exact hc1 | exact hc2)
  sl_step
  iapply Hk
  sl_unfold_words
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [read_writes_whole₂, View.readCov_unit_zero _ off_zero]
  simp only [View.readAt_eq_ld, View.ld_unit_zero (S := S1024x2048) off_zero]

/-! ## The accumulator, the invariant, the proof data -/

/-- The scratch accumulator as a memref. -/
abbrev scr : Memref sig .tc .vmem S1024x1024 .f32 := Memref.whole cc2_scratch0

/-- What the scratch holds after a first K-slice's point: the zero block plus that slice's product. -/
def accFirst (c : Dev nD) (t : Fin cfg2.N) : Vec F S1024x1024 .f32 :=
  k2_pay2 (k2_pay1 (F := F)) (iblk V c 0 t) (iblk V c 1 t)

/-- What the scratch holds after point t: at an even point the first slice's; at an odd point that of the point before
    plus this slice's product. -/
def accAt (c : Dev nD) (t : Fin cfg2.N) : Vec F S1024x1024 .f32 :=
  if t.val % 2 = 0 then accFirst V c t
  else k2_pay2 (accFirst V c ⟨t.val - 1, by have := t.isLt; omega⟩) (iblk V c 0 t) (iblk V c 1 t)

/-- The scoped rest of the region with S in the scratch's place: the other two regions' eight staging buffers at
    anything, then S. -/
def withOthers (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ S)

/-- The class invariant, the scratch as a memref owned at some contents. -/
theorem PhiA_eq (c : Dev nD) :
    (Pipeline.ΦA spec2 c : sProp 𝕄) = iprop(withOthers c iprop(∃ d, owns (c : Thread nD τ) scr fullShare d) ∗ (∃ r, prngReg c r)) := by
  unfold Pipeline.ΦA withOthers; rw [scopedRest2_eq]; simp only [scr, owns_whole]; try rfl

/-- The region's invariant before position n: before the first point the class's (the scratch at anything);
    afterwards the scratch at what the point before left. -/
def PhiS (c : Dev nD) : (n : ℕ) → n ≤ cfg2.N → sProp 𝕄
  | 0, _ => Pipeline.ΦA spec2 c
  | n + 1, hn => iprop(withOthers c (owns (c : Thread nD τ) scr fullShare (accAt V c ⟨n, hn⟩)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(withOthers c (owns (c : Thread nD τ) scr fullShare (accAt V c ⟨n, hn⟩)) ∗ (∃ r, prngReg c r)) := rfl

theorem PhiS_pos (c : Dev nD) (n : ℕ) (h : n ≤ cfg2.N) (hz : n ≠ 0) :
    PhiS V c n h = iprop(withOthers c (owns (c : Thread nD τ) scr fullShare (accAt V c ⟨n - 1, by omega⟩)) ∗ (∃ r, prngReg c r)) := by
  cases n with
  | zero => exact absurd rfl hz
  | succ n => rfl

/-- The proof data of the pipeline on core c: the arrays as the region finds them; after the body at point t each
    input's buffer at its block and the output's at the accumulator; the invariant carries the scratch; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => accAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = accAt V c t := by dsimp only [dat]

theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d

/-- The output window is idle exactly at the even points, -/
theorem idle_iff : ∀ t : Fin cfg2.N, idle2 2 (grid2.coords t) = true ↔ t.val % 2 = 0 :=
  (by decide +kernel : ∀ t : Fin grid2.N, idle2 2 (grid2.coords t) = true ↔ t.val % 2 = 0)

/-- What the body is called with at point t. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What it returns at a first K-slice: the output's buffer as it was handed over; -/
def bodyPostFirst (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ (∃ d, owns (c : Thread nD τ) (st2_2 t) fullShare ((dat V c).before 2 t d)))

/-- and at a last K-slice: the output's buffer at the accumulator. -/
def bodyPostLast (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem accAt_even (c : Dev nD) (t : Fin cfg2.N) (h : t.val % 2 = 0) : accAt V c t = accFirst V c t := by
  unfold accAt; rw [if_pos h]
theorem accAt_odd (c : Dev nD) (t : Fin cfg2.N) (h : ¬ t.val % 2 = 0) :
    accAt V c t = k2_pay2 (accFirst V c ⟨t.val - 1, by have := t.isLt; omega⟩) (iblk V c 0 t) (iblk V c 1 t) := by
  unfold accAt; rw [if_neg h]

set_option maxHeartbeats 1000000 in
/-- The body at an even point: whatever the scratch held, it ends at the first slice's accumulator. -/
theorem sound_body_first (c : Dev nD) (t : Fin cfg2.N) (hpar : t.val % 2 = 0) :
    bodyPre V c t ⊢ wp frame (wpE (defs₀ (F := F)) Variants.none c none) Set.univ (bodyAt2 t) (fun _ => bodyPostFirst V c t) := by
  unfold bodyPre bodyPostFirst bodyAt2
  simp only [before_0, before_1]
  rw [Phi_castSucc, show (dat V c).Φ t.succ = PhiS V c (t.val + 1) t.isLt from rfl, PhiS_succ,
    show (dat V c).owesAt () t.succ = (dat V c).owesAt () t.castSucc from rfl, after_0, after_1,
    show (⟨t.val, t.isLt⟩ : Fin cfg2.N) = t from rfl, accAt_even V c t hpar]
  have hstart : PhiS V c t.val (Nat.le_of_lt t.isLt) ⊢ iprop(withOthers c iprop(∃ d, owns (c : Thread nD τ) scr fullShare d) ∗ (∃ r, prngReg c r)) := by
    by_cases hz : t.val = 0
    · rw [PhiS_zero V c _ _ hz, PhiA_eq]
    · rw [PhiS_pos V c _ _ hz]; unfold withOthers
      iintro ⟨⟨A1, A2, A3, A4, A5, A6, A7, A8, HS⟩, Hg⟩
      isplitr [Hg]
      swap; · iexact Hg
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexists _; iexact HS
  iintro ⟨HΦ, Ho, ⟨%d0, H0⟩, ⟨%d1, H1⟩, ⟨%d2, H2⟩⟩
  ihave HΦ' := hstart $$ HΦ
  unfold withOthers
  icases HΦ' with ⟨⟨A1, A2, A3, A4, A5, A6, A7, A8, HS⟩, Hg⟩
  iapply (sound_kernel_first c Set.univ _ _ _ _ _ _ _ _ _ ((isFirst_iff t).mpr hpar) (fun h => absurd ((isLast_iff t).mp h) (by omega))
    (iblk V c 0 t) (iblk V c 1 t) ((dat V c).before 2 t d2) _)
  isplitl [H0]; · iexact H0
  isplitl [H1]; · iexact H1
  isplitl [H2]; · iexact H2
  isplitl [HS]; · iexact HS
  iintro ⟨H0, H1, H2, HS⟩
  isplitl [A1 A2 A3 A4 A5 A6 A7 A8 HS Hg]
  · isplitr [Hg]
    swap; · iexact Hg
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  isplitl [Ho]; · iexact Ho
  isplitl [H0]; · iexact H0
  isplitl [H1]; · iexact H1
  iexists _; iexact H2

set_option maxHeartbeats 1000000 in
/-- The body at an odd point: the scratch at the point before's accumulator ends, with the output's buffer, at this
    point's. -/
theorem sound_body_last (c : Dev nD) (t : Fin cfg2.N) (hpar : ¬ t.val % 2 = 0) :
    bodyPre V c t ⊢ wp frame (wpE (defs₀ (F := F)) Variants.none c none) Set.univ (bodyAt2 t) (fun _ => bodyPostLast V c t) := by
  unfold bodyPre bodyPostLast bodyAt2
  simp only [before_0, before_1]
  have hz : t.val ≠ 0 := fun h => hpar (by rw [h])
  have hprev : (t.val - 1) % 2 = 0 := by have := t.isLt; omega
  rw [Phi_castSucc, PhiS_pos V c _ _ hz, show (dat V c).Φ t.succ = PhiS V c (t.val + 1) t.isLt from rfl, PhiS_succ,
    show (dat V c).owesAt () t.succ = (dat V c).owesAt () t.castSucc from rfl, after_0, after_1, after_2,
    show (⟨t.val, t.isLt⟩ : Fin cfg2.N) = t from rfl, accAt_odd V c t hpar, accAt_even V c ⟨t.val - 1, _⟩ hprev]
  unfold withOthers
  iintro ⟨⟨⟨A1, A2, A3, A4, A5, A6, A7, A8, HS⟩, Hg⟩, Ho, ⟨%d0, H0⟩, ⟨%d1, H1⟩, ⟨%d2, H2⟩⟩
  iapply (sound_kernel_last c Set.univ _ _ _ _ _ _ _ _ _ (fun h => hpar ((isFirst_iff t).mp h)) ((isLast_iff t).mpr (by omega))
    (iblk V c 0 t) (iblk V c 1 t) (accFirst V c ⟨t.val - 1, by have := t.isLt; omega⟩) _)
  isplitl [H0]; · iexact H0
  isplitl [H1]; · iexact H1
  isplitl [H2]; · iexists _; iexact H2
  isplitl [HS]; · iexact HS
  iintro ⟨H0, H1, H2, HS⟩
  isplitl [A1 A2 A3 A4 A5 A6 A7 A8 HS Hg]
  · isplitr [Hg]
    swap; · iexact Hg
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  by_cases hpar : t.val % 2 = 0
  · have hidle : idle2 2 (grid2.coords t) = true := (idle_iff t).mpr hpar
    have hflush : (cfg2.win 2).flush t = false := by
      cases h : (cfg2.win 2).flush t with
      | false => rfl
      | true => exact absurd ((flush2_2 t).mp h) (by omega)
    simp only [hidle, hflush]
    exact sound_body_first V c t hpar
  · have hidle : idle2 2 (grid2.coords t) = false := by
      cases h : idle2 2 (grid2.coords t) with
      | false => rfl
      | true => exact absurd ((idle_iff t).mp h) hpar
    simp only [hidle]
    exact sound_body_last V c t hpar

/-- Before the first point the invariant is the class's. -/
theorem Phi_in (c : Dev nD) : Pipeline.ΦA spec2 c ⊢ (dat V c).Φ 0 := by
  rw [show (dat V c).Φ 0 = PhiS V c 0 (Nat.zero_le _) from rfl, PhiS_zero V c 0 _ rfl]

/-- After the last point it gives the class's back: the accumulator's contents are forgotten. -/
theorem Phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 64 := N_2; omega), PhiA_eq]
  unfold withOthers
  iintro ⟨⟨A1, A2, A3, A4, A5, A6, A7, A8, HS⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexists _; iexact HS

end Cert.Kernel.Region2

end
-- ==== Proof.WordRunMain.lean ====
/-
  The run of the kernel program through its five items, at any float instance.

  The program is: a reshape of the activations into a matrix; region 0, which quantises and dequantises that matrix
  into a second array; region 1, which does the same to the weights; region 2, the product of the two results; and a
  reshape of the product into the result's shape. Between two items every unscoped buffer of a core holds known
  contents: the launch memory, then what the reshape writes, then, region by region, the region's arrays at what its
  pipeline's write-backs leave and every other buffer as the region found it, then what the last reshape writes. No
  item writes an argument array (region 1 reads the weights through an input window, which leaves its array as
  entered), so the contents at an argument walk back to the launch memory. Each region is entered from the state
  "every unscoped buffer at the boundary's contents, the generator register at some state, nothing owed" and leaves
  that state at the next boundary's contents. The run chains the five items from the launch, and the final memory is
  read against the last boundary's contents: the result buffer holds the last reshape of what region 2 leaves, and
  both arguments are as launched.
-/
import proofs.«101090_j15023795602200_2_alg».proof.Proof.WordRegion0
import proofs.«101090_j15023795602200_2_alg».proof.Proof.WordRegion1
import proofs.«101090_j15023795602200_2_alg».proof.Proof.WordRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RunMain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of the program -/

/-- Core c's buffers at launch. -/
abbrev W0 : Dev nD → Valuation τ sig (Elt F) := fun c b => (s₀ m ρ).mem ((c : Dev nD), b)
/-- After the first reshape: what region 0 is entered from. -/
abbrev W1 : Dev nD → Valuation τ sig (Elt F) := fun c => StableHlo.after hostOps0 (W0 m ρ c)
/-- The same, read at the TensorCore's references. -/
abbrev E1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (Region0.dat (E1 m ρ) c).arrAt w cfg0.N
theorem W2_arr (c : Dev nD) (w : Fin cfg0.W) :
    W2 m ρ c (Proc.devRef .tc (Pipeline.arrRef spec0 w)) = (Region0.dat (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references: what region 1 is entered from. -/
abbrev E2 : (c : Dev nD) → (b : Ref sig .tc) → Buf (Elt F) ((c : Thread nD τ).loc b) := fun c b => W2 m ρ c b
theorem hF0 (c : Dev nD) (w : Fin cfg0.W) : (Region0.dat (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (Region1.dat (E2 m ρ) c).arrAt w cfg1.N
theorem W3_arr (c : Dev nD) (w : Fin cfg1.W) :
    W3 m ρ c (Proc.devRef .tc (Pipeline.arrRef spec1 w)) = (Region1.dat (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references: what region 2 is entered from. -/
abbrev E3 : (c : Dev nD) → (b : Ref sig .tc) → Buf (Elt F) ((c : Thread nD τ).loc b) := fun c b => W3 m ρ c b
theorem hF1 (c : Dev nD) (w : Fin cfg1.W) : (Region1.dat (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- At region 2's exit. -/
def W4 (c : Dev nD) : Valuation τ sig (Elt F) :=
  Pipeline.withArrays spec2 c (W3 m ρ c) fun w => (Region2.dat (E3 m ρ) c).arrAt w cfg2.N
theorem W4_arr (c : Dev nD) (w : Fin cfg2.W) :
    W4 m ρ c (Proc.devRef .tc (Pipeline.arrRef spec2 w)) = (Region2.dat (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same, read at the TensorCore's references. -/
abbrev E4 : (c : Dev nD) → (b : Ref sig .tc) → Buf (Elt F) ((c : Thread nD τ).loc b) := fun c b => W4 m ρ c b
theorem hF2 (c : Dev nD) (w : Fin cfg2.W) : (Region2.dat (E3 m ρ) c).arrAt w cfg2.N = E4 m ρ c (Pipeline.arrRef spec2 w) :=
  (W4_arr m ρ c w).symm
theorem hrest2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- After the last reshape: the buffers at the return. -/
abbrev W5 : Dev nD → Valuation τ sig (Elt F) := fun c => StableHlo.after hostOps3 (W4 m ρ c)

/-! ### The arguments end as launched -/

/-- The first reshape writes its result only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- The last reshape writes its result only. -/
theorem W5_of_ne (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The activations: no reshape writes them and no region has them as an array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- The weights: region 1 reads them through an input window, which leaves its array as entered. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) :=
        (W3_arr m ρ c 0).trans (((Region1.dat (E2 m ρ) c).arrAt_in 0 rfl _).trans (Region1.A_eq (E2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (E1 m ρ) c
  | ⟨1, _⟩ => fun c => Region1.dat (E2 m ρ) c
  | ⟨2, _⟩ => fun c => Region2.dat (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, at
    nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the contents at the return, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- applying a library lemma stated over a pinned configuration unifies with the printed one only when unification may
-- unfold plain definitions in a metavariable's type
set_option backward.isDefEq.respectTransparency.types false in
/-- REGION 0 over the thread state: entered from every unscoped buffer at its entry contents and left at its exit
    contents. Its arrays are split out of the unscoped buffers and put back at what the pipeline leaves; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun w => Region0.A_eq (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration unifies with the printed one only when unification may
-- unfold plain definitions in a metavariable's type
set_option backward.isDefEq.respectTransparency.types false in
/-- REGION 1 over the thread state: entered from every unscoped buffer at its entry contents and left at its exit
    contents. Its arrays are split out of the unscoped buffers and put back at what the pipeline leaves; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun w => Region1.A_eq (E2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration unifies with the printed one only when unification may
-- unfold plain definitions in a metavariable's type
set_option backward.isDefEq.respectTransparency.types false in
/-- REGION 2 over the thread state: entered from every unscoped buffer at its entry contents and left at its exit
    contents. Its arrays are split out of the unscoped buffers and put back at what the pipeline leaves; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun w => Region2.A_eq (E3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m ρ 2 c).Φ 0 from Region2.Phi_in (E3 m ρ) c)
    unfold Pipeline.ΦA
    iintro ⟨Hp, -, Hr⟩
    isplitl [Hr]; · iexact Hr
    iexact Hp
  hout c := by
    refine BIBase.Entails.trans (show (pdats m ρ 2 c).Φ (Fin.last _) ⊢ (Pipeline.ΦA spec2 c : sProp 𝕄) from Region2.Phi_out (E3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five items in order: the reshape, the three regions, the reshape. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- The program is the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds the result buffer at the contents at the return and both argument arrays as
    launched. -/
theorem run_main : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ (∃ r, prngReg c r) ∗ ∃ W, owes (c : Thread nD τ) (0 : CellTallies nD τ sig Unit) W)
        ⊢ (iprop((StableHlo.held (c : Thread nD τ) (Pipeline.ucRefs τ sig) (W5 m ρ c) ∗ ∃ r, prngReg c r)
          ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c)⟩)

/-- THE FRAME: the run with the result's value forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.RunMain

end
-- ==== Proof.Spec.lean ====
/-
  Blockwise four-bit float quantisation, written on the extended reals, and the linear layer over it.

  A row of 4096 entries is cut into 128 blocks of 32. A block's scale is max(amax, c) / 6, where amax is the largest
  absolute value in the block and c the pattern 0x2B8CBCCC; an entry is divided by max(scale, c), clipped to [-6, 6],
  its absolute value rounded DOWN the ladder 0, 1/2, 1, 3/2, 2, 3, 4, 6 at the thresholds 1/4, 3/4, 5/4, 7/4, 5/2, 7/2,
  5, given back its sign (+1 at zero) and multiplied by the block's scale again. The layer's entry (r, n) is the sum
  over k of the dequantised row r of the activations times the dequantised row n of the weights.

  Every float literal is kept as its pattern (Ideal.ofBits): the two programs carry the same words, and none is ever
  evaluated except the smallest, whose positivity keeps the divisor off zero.
-/
import Idealize.ShloMosaic.PureOps.Ideal
import Idealize.ShloMosaic.Lib.ValueIdx

noncomputable section

namespace Cert.BlockQuant

open Idealize.ShloMosaic Idealize.ShloMosaic.ValueIdx

/-- A 32-bit float pattern as the extended real it denotes. -/
abbrev lit (w : BitVec 32) : EReal := Ideal.ofBits .f32 w

/-- Entry j of block b of a row. -/
def blockIdx (b : Fin 128) (j : Fin 32) : Fin 4096 := ⟨b.val * 32 + j.val, by have := b.isLt; have := j.isLt; omega⟩

/-- The block an entry lies in. -/
def blk (k : Fin 4096) : Fin 128 := ⟨k.val / 32, by have := k.isLt; omega⟩

/-- The largest absolute value of a block, as the fold of max over its 32 entries from -∞. -/
def amax (row : Fin 4096 → EReal) (b : Fin 128) : EReal :=
  (Finset.univ : Finset (Fin 32)).fold max (lit 0xFF800000#32)
    (fun j => max (row (blockIdx b j)) (-(row (blockIdx b j))))

/-- The block's scale: max(amax, c) / 6. -/
def scale (row : Fin 4096 → EReal) (b : Fin 128) : EReal :=
  Ideal.div (max (amax row b) (lit 0x2B8CBCCC#32)) (lit 0x40C00000#32)

/-- The divisor: max(scale, c). -/
def denom (row : Fin 4096 → EReal) (b : Fin 128) : EReal := max (scale row b) (lit 0x2B8CBCCC#32)

/-- Clipping to [-6, 6]. -/
def clip (x : EReal) : EReal := min (lit 0x40C00000#32) (max (lit 0xC0C00000#32) x)

/-- +1 where 0 ≤ x, else -1. -/
def sgn (x : EReal) : EReal :=
  Scalar.select (Ideal.cmp .oge x (lit 0x00000000#32)) (lit 0x3F800000#32) (lit 0xBF800000#32)

/-- The ladder: the level an absolute value is rounded to. -/
def level (a : EReal) : EReal :=
  Scalar.select (Ideal.cmp .olt a (lit 0x3E800000#32)) (lit 0x00000000#32) <|
  Scalar.select (Ideal.cmp .olt a (lit 0x3F400000#32)) (lit 0x3F000000#32) <|
  Scalar.select (Ideal.cmp .olt a (lit 0x3FA00000#32)) (lit 0x3F800000#32) <|
  Scalar.select (Ideal.cmp .olt a (lit 0x3FE00000#32)) (lit 0x3FC00000#32) <|
  Scalar.select (Ideal.cmp .olt a (lit 0x40200000#32)) (lit 0x40000000#32) <|
  Scalar.select (Ideal.cmp .olt a (lit 0x40600000#32)) (lit 0x40400000#32) <|
  Scalar.select (Ideal.cmp .olt a (lit 0x40A00000#32)) (lit 0x40800000#32) (lit 0x40C00000#32)

/-- The clipped quotient of entry k by its block's divisor. -/
def clipped (row : Fin 4096 → EReal) (k : Fin 4096) : EReal := clip (Ideal.div (row k) (denom row (blk k)))

/-- An entry quantised and dequantised: sign times level times the block's scale. -/
def qd (row : Fin 4096 → EReal) (k : Fin 4096) : EReal :=
  (sgn (clipped row k) * level (max (clipped row k) (-(clipped row k)))) * scale row (blk k)

/-- The layer: entry (r, n) is the sum over k of the dequantised activations' row r times the dequantised weights' row n. -/
def layer (X : Fin 8192 → Fin 4096 → EReal) (W : Fin 4096 → Fin 4096 → EReal) (r : Fin 8192) (n : Fin 4096) : EReal :=
  ∑ k : Fin 4096, qd (X r) k * qd (W n) k

/-- The activations' shape [4, 2048, 4096] and the weights' [4096, 4096]. -/
abbrev SX : Shape := ⟨3, ![4, 2048, 4096]⟩
abbrev SW : Shape := ⟨2, ![4096, 4096]⟩

/-- Row r = 2048 * b + s of the activations viewed as [8192, 4096] is row (b, s) of the array. -/
def xrow (x : SX.Idx → EReal) (r : Fin 8192) (k : Fin 4096) : EReal :=
  x (ix3 (⟨r.val / 2048, by have := r.isLt; omega⟩ : Fin 4) (⟨r.val % 2048, by omega⟩ : Fin 2048) k)

/-- Row n of the weights. -/
def wrow (w : SW.Idx → EReal) (n k : Fin 4096) : EReal := w (ix2 n k)

/-- Row (b, s) of the result as the row 2048 * b + s of the [8192, 4096] view. -/
def rowOf (b : Fin 4) (s : Fin 2048) : Fin 8192 := ⟨b.val * 2048 + s.val, by have := b.isLt; have := s.isLt; omega⟩

/-- THE SPECIFICATION: the result array [4, 2048, 4096] as one function of the two argument arrays. -/
def G (x : SX.Idx → EReal) (w : SW.Idx → EReal) : SX.Idx → EReal :=
  fun i => layer (xrow x) (wrow w) (rowOf (i 0) (i 1)) (i 2)

/-- The divisor is never zero: it is at least the positive constant c. -/
theorem denom_ne_zero (row : Fin 4096 → EReal) (b : Fin 128) : denom row b ≠ 0 := by
  have hc : (0 : EReal) < lit 0x2B8CBCCC#32 := by
    simp [lit, Ideal.ofBits, Ideal.ieee]
    rw [← EReal.coe_mul, ← EReal.coe_zero, EReal.coe_lt_coe_iff]
    norm_num
  exact (lt_of_lt_of_le hc (le_max_right _ _)).ne'

/-- Multiplying by the reciprocal of the divisor is dividing by it. -/
theorem mul_inv_denom (x : EReal) (row : Fin 4096 → EReal) (b : Fin 128) :
    x * Ideal.div (lit 0x3F800000#32) (denom row b) = Ideal.div x (denom row b) := by
  have h1 : lit 0x3F800000#32 = 1 := by
    simp [lit, Ideal.ofBits, Ideal.ieee]
    rw [← EReal.coe_mul, ← EReal.coe_one, EReal.coe_eq_coe_iff]
    norm_num
  unfold Ideal.div
  rw [if_neg (denom_ne_zero row b), if_neg (denom_ne_zero row b), h1, one_mul]

end Cert.BlockQuant

end
-- ==== Proof.LibMergeAxes.lean ====
/-
  Three-axis arrays re-laid and reduced, read at an index (program-independent; imports only the library).

  An array [a, b, c] viewed as the matrix [n, c] with n = a * b has row p * b + q equal to row (p, q) of the array, and
  the matrix viewed back as the array likewise: the two indices sit at one row-major position. A matrix [a, b] given a
  trailing unit axis, [a, b, 1], reads (p, q) at (p, q, 0). An array with a unit axis broadcast along that axis reads
  the same entry whatever the coordinate on it — for each of the three axes. At the ideal values a sum along the last
  axis is the sum over that axis's coordinates, and a maximum along it the fold of max over them.
-/
import Idealize.ShloMosaic.Lib.ValueIdx
import Idealize.ShloMosaic.Lib.Pipeline.Value
import Idealize.ShloMosaic.PureOps.Ideal.Laws

noncomputable section

namespace Cert.MergeAxes

open Idealize.ShloMosaic Idealize.ShloMosaic.ValueIdx

variable {α : Type}

/-- [a, b, c] viewed as [n, c]: row r = p * b + q of the matrix is row (p, q) of the array. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- [n, c] viewed as [a, b, c]: row (p, q) of the array is row r = p * b + q of the matrix. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

/-- A matrix [a, b] given a trailing unit axis reads, at (p, q, z), its entry (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_two, Shape.rowMajor_val_three]
    show p.val * b + q.val = (p.val * b + q.val) * 1 + z.val
    rw [hz, Nat.mul_one, Nat.add_zero])

/-- [1, b, c] broadcast along axis 0 reads, at (p, q, k), the entry (0, q, k). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 (0 : Fin 1) q k) :=
  broadcastTo_apply x h _ _ (fun d => match d with
    | ⟨0, _⟩ => by
      show 0 = if (1 : Nat) = 1 then 0 else p.val
      rw [if_pos rfl]
    | ⟨1, _⟩ => by
      show q.val = if b = 1 then 0 else q.val
      by_cases hb : b = 1
      · rw [if_pos hb]; have := q.isLt; omega
      · rw [if_neg hb]
    | ⟨2, _⟩ => by
      show k.val = if c = 1 then 0 else k.val
      by_cases hc : c = 1
      · rw [if_pos hc]; have := k.isLt; omega
      · rw [if_neg hc])

/-- [a, 1, c] broadcast along axis 1 reads, at (p, q, k), the entry (p, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show 0 = if (1 : Nat) = 1 then 0 else q.val
      rw [if_pos rfl]
    | ⟨2, _⟩ => by
      show k.val = if c = 1 then 0 else k.val
      by_cases hc : c = 1
      · rw [if_pos hc]; have := k.isLt; omega
      · rw [if_neg hc])

/-- [a, b, 1] broadcast along axis 2 reads, at (p, q, k), the entry (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show q.val = if b = 1 then 0 else q.val
      by_cases hb : b = 1
      · rw [if_pos hb]; have := q.isLt; omega
      · rw [if_neg hb]
    | ⟨2, _⟩ => by
      show 0 = if (1 : Nat) = 1 then 0 else k.val
      rw [if_pos rfl])

/-- Over the kept entry (p, q), the index with coordinate k put back on the reduced last axis is (p, q, k). -/
theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- At the ideal values the sum along the last axis, at (p, q), is the sum of the entries (p, q, k). -/
theorem multiReduction_add_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ X acc h hφ hacc (ix2 p q) = ∑ k : Fin c, X (ix3 p q k) := by
  refine (Ideal.multiReduction_add_single X acc h hφ hacc (ix2 p q)).trans ?_
  exact Finset.sum_congr rfl fun k _ => congrArg X (lift_last h p q k)

/-- At the ideal values the maximum along the last axis, at (p, q), is the fold of max over the entries (p, q, k) from
    the value of the accumulator's pattern. -/
theorem multiReduction_max_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ X acc h hφ hacc (ix2 p q)
      = (Finset.univ : Finset (Fin c)).fold max (Ideal.ofBits φ acc) (fun k => X (ix3 p q k)) := by
  refine (Ideal.multiReduction_maximumf_single X acc h hφ hacc (ix2 p q)).trans ?_
  have e : (X ∘ h.lift (ix2 p q))
      = fun k : Fin ((⟨3, ![a, b, c]⟩ : Shape).size 2) => X (ix3 p q (⟨k.val, k.isLt⟩ : Fin c)) :=
    funext fun k => congrArg X (lift_last h p q k)
  rw [e]
  rfl

end Cert.MergeAxes

end
-- ==== Proof.LibAxisFolds.lean ====
/-
  Folds along one axis of a three-axis array, read at an index (program-independent; imports only the library and the
  three-axis reading lemmas beside it).

  A matrix [a, b] given a middle unit axis, [a, 1, b], reads (p, k) at (p, 0, k). Over the kept entry (p, k) of an
  [a, b, c] array reduced along its middle axis, the index with coordinate q put back is (p, q, k). At the ideal values
  a minimum along the middle axis is, at (p, k), the fold of min over the entries (p, q, k) from the accumulator's value;
  the host's one-operand reduce with a maximum body is, along the last axis at (p, q), the fold of max over the entries
  (p, q, k), and along the middle axis at (p, k) the fold of max over the entries (p, q, k), each from the initial
  value's one element.
-/
import Idealize.ShloMosaic.Lib.ValueIdx
import Idealize.ShloMosaic.Lib.Pipeline.Value
import Idealize.ShloMosaic.PureOps.Ideal.Laws
import proofs.«101090_j15023795602200_2_alg».proof.Proof.LibMergeAxes

noncomputable section

namespace Cert.AxisFolds

open Idealize.ShloMosaic Idealize.ShloMosaic.ValueIdx

variable {α : Type}

/-- A matrix [a, b] given a middle unit axis reads, at (p, z, k), its entry (p, k). -/
theorem shapeCast_ab_a1b_apply {a b : ℕ} (x : (⟨2, ![a, b]⟩ : Shape).Idx → α)
    (h : (⟨2, ![a, b]⟩ : Shape).ShapeCasts ⟨3, ![a, 1, b]⟩) (p : Fin a) (z : Fin 1) (k : Fin b) :
    shapeCast ⟨3, ![a, 1, b]⟩ x h (ix3 p z k) = x (ix2 p k) :=
  shapeCast_apply x h _ _ (by
    have hz : z.val = 0 := by omega
    rw [Shape.rowMajor_val_two, Shape.rowMajor_val_three]
    show p.val * b + k.val = (p.val * 1 + z.val) * b + k.val
    rw [hz, Nat.mul_one, Nat.add_zero])

/-- Over the kept entry (p, k), the index with coordinate q put back on the reduced middle axis is (p, q, k). -/
theorem lift_mid {a b c : ℕ} (h : (⟨3, ![a, b, c]⟩ : Shape).Reduces [1] ⟨2, ![a, c]⟩) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- At the ideal values the minimum along the middle axis, at (p, k), is the fold of min over the entries (p, q, k)
    from the value of the accumulator's pattern. -/
theorem multiReduction_min_mid {a b c : ℕ} {φ : FTy} (X : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (k : Fin c) :
    multiReduction .minimumf [1] ⟨2, ![a, c]⟩ X acc h hφ hacc (ix2 p k)
      = (Finset.univ : Finset (Fin b)).fold min (Ideal.ofBits φ acc) (fun q => X (ix3 p q k)) := by
  rw [multiReduction_minimumf_eq_fold]
  refine (h.fold_filter_drop_single _ _ X (ix2 p k)).trans ?_
  have e : (X ∘ h.lift (ix2 p k))
      = fun q : Fin ((⟨3, ![a, b, c]⟩ : Shape).size 1) => X (ix3 p (⟨q.val, q.isLt⟩ : Fin b) k) :=
    funext fun q => congrArg X (lift_mid h p k q)
  rw [e]
  rfl

/-- At the ideal values the host's reduce with a maximum body along the last axis, at (p, q), is the fold of max over
    the entries (p, q, k) from the initial value's element. -/
theorem hostReduce_max_last {a b c : ℕ} {φ : FTy} {u : Shape} (x : (⟨3, ![a, b, c]⟩ : Shape).Idx → Ideal φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := φ)) x init h' hu (ix2 p q)
      = (Finset.univ : Finset (Fin c)).fold max (init (Shape.Idx.first hu)) (fun k => x (ix3 p q k)) := by
  refine (Host.reduce_eq_fold_single _ x init h' h hu (ix2 p q)).trans ?_
  have e : (x ∘ h.lift (ix2 p q))
      = fun k : Fin ((⟨3, ![a, b, c]⟩ : Shape).size 2) => x (ix3 p q (⟨k.val, k.isLt⟩ : Fin c)) :=
    funext fun k => congrArg x (Cert.MergeAxes.lift_last h p q k)
  rw [e]
  rfl

/-- … and along the middle axis, at (p, k), the fold of max over the entries (p, q, k). -/
theorem hostReduce_max_mid {a b c : ℕ} {φ : FTy} {u : Shape} (x : (⟨3, ![a, b, c]⟩ : Shape).Idx → Ideal φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (k : Fin c) :
    Host.reduce (FloatOps.maximumf (F := Ideal) (φ := φ)) x init h' hu (ix2 p k)
      = (Finset.univ : Finset (Fin b)).fold max (init (Shape.Idx.first hu)) (fun q => x (ix3 p q k)) := by
  refine (Host.reduce_eq_fold_single _ x init h' h hu (ix2 p k)).trans ?_
  have e : (x ∘ h.lift (ix2 p k))
      = fun q : Fin ((⟨3, ![a, b, c]⟩ : Shape).size 1) => x (ix3 p (⟨q.val, q.isLt⟩ : Fin b) k) :=
    funext fun q => congrArg x (lift_mid h p k q)
  rw [e]
  rfl

end Cert.AxisFolds

end
-- ==== Proof.RefValue.lean ====
/-
  The reference program's result is the specification's layer.

  The reference views the activations [4, 2048, 4096] as the matrix [8192, 4096] and cuts each row into 128 blocks of
  32: position (r, b, j) of the [8192, 128, 32] array is entry 32 * b + j of row r. Per block it takes the largest
  absolute value, forms the scale max(amax, c) / 6 and the divisor max(scale, c), divides each entry by its block's
  divisor, clips to [-6, 6], takes the sign and rounds the absolute value down the eight-step ladder, and multiplies
  sign, level and the block's scale. Back in matrix form, entry (r, k) is the dequantised value qd of row r at k, since
  k is entry k mod 32 of block k div 32. The weights [4096, 4096] go through the same chain row by row. The result's
  entry (r, n) is the sum over k of the two dequantised rows' products, and entry (b, s, n) of the final array is
  entry (2048 * b + s, n) of that matrix. Each stage below is read at explicit coordinates; the float literals are the
  same patterns on both sides and are never evaluated.
-/
import proofs.«101090_j15023795602200_2_alg».proof.Proof.Gen.ReferenceIdeal.Read
import proofs.«101090_j15023795602200_2_alg».proof.Proof.Spec
import proofs.«101090_j15023795602200_2_alg».proof.Proof.LibMergeAxes
import proofs.«101090_j15023795602200_2_alg».proof.Proof.LibAxisFolds

noncomputable section

namespace Cert.RefValue

open Idealize.ShloMosaic Idealize.ShloMosaic.ValueIdx Cert.ReferenceIdeal Cert.ReferenceIdeal.Gen Cert.ReferenceIdeal.Read Cert.BlockQuant

/-- The activations' and the weights' contents at the ideal values. -/
abbrev XT := (⟨S4x2048x4096, .f32⟩ : BufTy).Contents (Elt Ideal)
abbrev WT := (⟨S4096x4096, .f32⟩ : BufTy).Contents (Elt Ideal)

/-- Entry j of block b lies in block b. -/
theorem blk_blockIdx (b : Fin 128) (j : Fin 32) : blk (blockIdx b j) = b := by
  apply Fin.ext
  show (b.val * 32 + j.val) / 32 = b.val
  have := j.isLt
  omega

/-- The position of an entry inside its block. -/
def lane (k : Fin 4096) : Fin 32 := ⟨k.val % 32, by omega⟩

/-- An entry is the entry at its position of its block. -/
theorem blockIdx_blk_lane (k : Fin 4096) : blockIdx (blk k) (lane k) = k := by
  apply Fin.ext
  show k.val / 32 * 32 + k.val % 32 = k.val
  omega

/-! ## The activations -/

/-- Position (r, b, j) of the blocked activations is entry 32 * b + j of row r of the matrix. -/
theorem idx_v1 (r : Fin 8192) (b : Fin 128) (j : Fin 32) : idx_main_v1 (ix3 r b j) = ix2 r (blockIdx b j) := by
  funext a; apply Fin.ext
  have := r.isLt; have := b.isLt; have := j.isLt
  match a with
  | ⟨0, _⟩ => show ((r.val * 128 + b.val) * 32 + j.val) / 4096 = r.val; omega
  | ⟨1, _⟩ => show ((r.val * 128 + b.val) * 32 + j.val) % 4096 = b.val * 32 + j.val; omega

/-- Row r of the matrix view is row (r div 2048, r mod 2048) of the activations. -/
theorem idx_v0 (r : Fin 8192) (k : Fin 4096) :
    idx_main_v0 (ix2 r k) = ix3 (⟨r.val / 2048, by have := r.isLt; omega⟩ : Fin 4) (⟨r.val % 2048, by omega⟩ : Fin 2048) k := by
  funext a; apply Fin.ext
  have := r.isLt; have := k.isLt
  match a with
  | ⟨0, _⟩ => show (r.val * 4096 + k.val) / 8388608 = r.val / 2048; omega
  | ⟨1, _⟩ => show (r.val * 4096 + k.val) / 4096 % 2048 = r.val % 2048; omega
  | ⟨2, _⟩ => show (r.val * 4096 + k.val) % 4096 = k.val; omega

/-- The blocked activations at (r, b, j): entry 32 * b + j of row r. -/
theorem x_v1 (x0 : XT) (r : Fin 8192) (b : Fin 128) (j : Fin 32) :
    val_main_v1 (F := Ideal) x0 (ix3 r b j) = xrow x0 r (blockIdx b j) := by
  rw [val_main_v1_apply, val_main_v0_apply, idx_v1, idx_v0]
  rfl

/-- The maximum along a block of the absolute values is the block's amax. -/
theorem x_v3 (x0 : XT) (r : Fin 8192) (b : Fin 128) :
    val_main_v3 (F := Ideal) x0 (ix2 r b) = amax (xrow x0 r) b := by
  unfold val_main_v3
  refine (Cert.AxisFolds.hostReduce_max_last (a := 8192) (b := 128) (c := 32) (φ := .f32) (u := S_)
    (val_main_v2 (F := Ideal) x0) (val_main_cst (F := Ideal)) _ (by decide) _ r b).trans ?_
  have e : (fun k : Fin 32 => val_main_v2 (F := Ideal) x0 (ix3 r b k))
      = fun j => max (xrow x0 r (blockIdx b j)) (-(xrow x0 r (blockIdx b j))) := funext fun k => by
    rw [val_main_v2_apply, x_v1]; rfl
  rw [e]; rfl

/-- The block's scale max(amax, c) / 6. -/
theorem x_v7 (x0 : XT) (r : Fin 8192) (b : Fin 128) :
    val_main_v7 (F := Ideal) x0 (ix2 r b) = scale (xrow x0 r) b := by
  rw [val_main_v7_apply, val_main_v5_apply, val_main_v6_apply, val_main_v4_apply, x_v3]
  rfl

/-- The block's divisor max(scale, c). -/
theorem x_v9 (x0 : XT) (r : Fin 8192) (b : Fin 128) :
    val_main_v9 (F := Ideal) x0 (ix2 r b) = denom (xrow x0 r) b := by
  rw [val_main_v9_apply, val_main_v8_apply, x_v7]
  rfl

/-- The divisor, given a unit axis and repeated along the block, is read at (r, b). -/
theorem idx_v10_v11 (r : Fin 8192) (b : Fin 128) (j : Fin 32) : idx_main_v10 (idx_main_v11 (ix3 r b j)) = ix2 r b := by
  funext a
  match a with
  | ⟨0, _⟩ => rfl
  | ⟨1, _⟩ => rfl

/-- An entry divided by its block's divisor. -/
theorem x_v12 (x0 : XT) (r : Fin 8192) (b : Fin 128) (j : Fin 32) :
    val_main_v12 (F := Ideal) x0 (ix3 r b j)
      = Ideal.div (xrow x0 r (blockIdx b j)) (denom (xrow x0 r) b) := by
  rw [val_main_v12_apply, val_main_v11_apply, val_main_v10_apply, idx_v10_v11, x_v9, x_v1]
  rfl

/-- The quotient clipped to [-6, 6]. -/
theorem x_v13 (x0 : XT) (r : Fin 8192) (b : Fin 128) (j : Fin 32) :
    val_main_v13 (F := Ideal) x0 (ix3 r b j) = clipped (xrow x0 r) (blockIdx b j) := by
  rw [val_main_v13_apply, val_main_call0_v2_apply, x_v12]
  unfold clipped
  rw [blk_blockIdx, val_main_call0_v4_apply, val_main_call0_v1_apply]
  rfl

/-- The sign of the clipped quotient. -/
theorem x_v16 (x0 : XT) (r : Fin 8192) (b : Fin 128) (j : Fin 32) :
    val_main_v16 (F := Ideal) x0 (ix3 r b j) = sgn (clipped (xrow x0 r) (blockIdx b j)) := by
  rw [val_main_v16_apply, val_main_v15_apply, x_v13, val_main_v14_apply, val_main_call1_v0_apply,
    val_main_call1_v1_apply]
  rfl

/-- The absolute value of the clipped quotient. -/
theorem x_v17 (x0 : XT) (r : Fin 8192) (b : Fin 128) (j : Fin 32) :
    val_main_v17 (F := Ideal) x0 (ix3 r b j)
      = max (clipped (xrow x0 r) (blockIdx b j)) (-(clipped (xrow x0 r) (blockIdx b j))) := by
  rw [val_main_v17_apply, x_v13]
  rfl

/-- The seven nested selects are the ladder applied to the absolute value. -/
theorem x_v38 (x0 : XT) (r : Fin 8192) (b : Fin 128) (j : Fin 32) :
    val_main_v38 (F := Ideal) x0 (ix3 r b j)
      = level (max (clipped (xrow x0 r) (blockIdx b j)) (-(clipped (xrow x0 r) (blockIdx b j)))) := by
  rw [val_main_v38_apply, val_main_v37_apply, val_main_v36_apply, val_main_v35_apply, val_main_v34_apply,
    val_main_v33_apply, val_main_v32_apply,
    val_main_v19_apply, val_main_v21_apply, val_main_v23_apply, val_main_v25_apply, val_main_v27_apply,
    val_main_v29_apply, val_main_v31_apply, x_v17,
    val_main_v18_apply, val_main_v20_apply, val_main_v22_apply, val_main_v24_apply, val_main_v26_apply,
    val_main_v28_apply, val_main_v30_apply,
    val_main_call8_v0_apply, val_main_call7_v0_apply, val_main_call6_v0_apply, val_main_call5_v0_apply,
    val_main_call4_v0_apply, val_main_call3_v0_apply, val_main_call2_v0_apply, val_main_call2_v1_apply]
  rfl

/-- Sign times level. -/
theorem x_v39 (x0 : XT) (r : Fin 8192) (b : Fin 128) (j : Fin 32) :
    val_main_v39 (F := Ideal) x0 (ix3 r b j)
      = sgn (clipped (xrow x0 r) (blockIdx b j))
        * level (max (clipped (xrow x0 r) (blockIdx b j)) (-(clipped (xrow x0 r) (blockIdx b j)))) := by
  rw [val_main_v39_apply, x_v16, x_v38]
  rfl

/-- Entry j of block b sits at position j of its block. -/
theorem lane_blockIdx (b : Fin 128) (j : Fin 32) : lane (blockIdx b j) = j := by
  apply Fin.ext
  show (b.val * 32 + j.val) % 32 = j.val
  have := j.isLt
  omega

/-- Position (r, b, j) of the blocked view is entry 32 * b + j of row r of the matrix. -/
theorem idx_v41 (r : Fin 8192) (b : Fin 128) (j : Fin 32) : idx_main_v41 (ix3 r b j) = ix2 r (blockIdx b j) := by
  funext a; apply Fin.ext
  have := r.isLt; have := b.isLt; have := j.isLt
  match a with
  | ⟨0, _⟩ => show ((r.val * 128 + b.val) * 32 + j.val) / 4096 = r.val; omega
  | ⟨1, _⟩ => show ((r.val * 128 + b.val) * 32 + j.val) % 4096 = b.val * 32 + j.val; omega

/-- Entry (r, k) of the matrix is position (r, k div 32, k mod 32) of the blocked array. -/
theorem idx_v40 (r : Fin 8192) (k : Fin 4096) : idx_main_v40 (ix2 r k) = ix3 r (blk k) (lane k) := by
  funext a; apply Fin.ext
  have := r.isLt; have := k.isLt
  match a with
  | ⟨0, _⟩ => show (r.val * 4096 + k.val) / 4096 = r.val; omega
  | ⟨1, _⟩ => show (r.val * 4096 + k.val) / 32 % 128 = k.val / 32; omega
  | ⟨2, _⟩ => show (r.val * 4096 + k.val) % 32 = k.val % 32; omega

/-- Entry (r, k) of the matrix is position (r, k div 32, k mod 32) of the blocked array. -/
theorem idx_v46 (r : Fin 8192) (k : Fin 4096) : idx_main_v46 (ix2 r k) = ix3 r (blk k) (lane k) := by
  funext a; apply Fin.ext
  have := r.isLt; have := k.isLt
  match a with
  | ⟨0, _⟩ => show (r.val * 4096 + k.val) / 4096 = r.val; omega
  | ⟨1, _⟩ => show (r.val * 4096 + k.val) / 32 % 128 = k.val / 32; omega
  | ⟨2, _⟩ => show (r.val * 4096 + k.val) % 32 = k.val % 32; omega

/-- Flattening the blocks and cutting them again changes nothing. -/
theorem x_v41 (x0 : XT) (r : Fin 8192) (b : Fin 128) (j : Fin 32) :
    val_main_v41 (F := Ideal) x0 (ix3 r b j) = val_main_v39 (F := Ideal) x0 (ix3 r b j) := by
  rw [val_main_v41_apply, val_main_v40_apply, idx_v41, idx_v40, blk_blockIdx, lane_blockIdx]

/-- The scale, given a unit axis and repeated along the block, is read at (r, b). -/
theorem idx_v42_v44 (r : Fin 8192) (b : Fin 128) (j : Fin 32) : idx_main_v42 (idx_main_v44 (ix3 r b j)) = ix2 r b := by
  funext a
  match a with
  | ⟨0, _⟩ => rfl
  | ⟨1, _⟩ => rfl

/-- Sign times level times the block's scale. -/
theorem x_v45 (x0 : XT) (r : Fin 8192) (b : Fin 128) (j : Fin 32) :
    val_main_v45 (F := Ideal) x0 (ix3 r b j)
      = (sgn (clipped (xrow x0 r) (blockIdx b j))
          * level (max (clipped (xrow x0 r) (blockIdx b j)) (-(clipped (xrow x0 r) (blockIdx b j)))))
        * scale (xrow x0 r) b := by
  rw [val_main_v45_apply, val_main_v43_apply, x_v41, x_v39, val_main_v44_apply, val_main_v42_apply,
    idx_v42_v44, x_v7]
  rfl

/-- The dequantised activations in matrix form: entry (r, k) is qd of row r at k. -/
theorem x_v46 (x0 : XT) (r : Fin 8192) (k : Fin 4096) :
    val_main_v46 (F := Ideal) x0 (ix2 r k) = qd (xrow x0 r) k := by
  rw [val_main_v46_apply, idx_v46, x_v45, blockIdx_blk_lane]
  rfl

/-! ## The weights -/

/-- Position (n, b, j) of the blocked weights is entry 32 * b + j of row n. -/
theorem idx_v47 (n : Fin 4096) (b : Fin 128) (j : Fin 32) : idx_main_v47 (ix3 n b j) = ix2 n (blockIdx b j) := by
  funext a; apply Fin.ext
  have := n.isLt; have := b.isLt; have := j.isLt
  match a with
  | ⟨0, _⟩ => show ((n.val * 128 + b.val) * 32 + j.val) / 4096 = n.val; omega
  | ⟨1, _⟩ => show ((n.val * 128 + b.val) * 32 + j.val) % 4096 = b.val * 32 + j.val; omega

/-- The blocked weights at (n, b, j): entry 32 * b + j of row n. -/
theorem w_v47 (x1 : WT) (n : Fin 4096) (b : Fin 128) (j : Fin 32) :
    val_main_v47 (F := Ideal) x1 (ix3 n b j) = wrow x1 n (blockIdx b j) := by
  rw [val_main_v47_apply, idx_v47]
  rfl

/-- The maximum along a block of the absolute values is the block's amax. -/
theorem w_v49 (x1 : WT) (n : Fin 4096) (b : Fin 128) :
    val_main_v49 (F := Ideal) x1 (ix2 n b) = amax (wrow x1 n) b := by
  unfold val_main_v49
  refine (Cert.AxisFolds.hostReduce_max_last (a := 4096) (b := 128) (c := 32) (φ := .f32) (u := S_)
    (val_main_v48 (F := Ideal) x1) (val_main_cst_23 (F := Ideal)) _ (by decide) _ n b).trans ?_
  have e : (fun k : Fin 32 => val_main_v48 (F := Ideal) x1 (ix3 n b k))
      = fun j => max (wrow x1 n (blockIdx b j)) (-(wrow x1 n (blockIdx b j))) := funext fun k => by
    rw [val_main_v48_apply, w_v47]; rfl
  rw [e]; rfl

/-- The block's scale max(amax, c) / 6. -/
theorem w_v53 (x1 : WT) (n : Fin 4096) (b : Fin 128) :
    val_main_v53 (F := Ideal) x1 (ix2 n b) = scale (wrow x1 n) b := by
  rw [val_main_v53_apply, val_main_v51_apply, val_main_v52_apply, val_main_v50_apply, w_v49]
  rfl

/-- The block's divisor max(scale, c). -/
theorem w_v55 (x1 : WT) (n : Fin 4096) (b : Fin 128) :
    val_main_v55 (F := Ideal) x1 (ix2 n b) = denom (wrow x1 n) b := by
  rw [val_main_v55_apply, val_main_v54_apply, w_v53]
  rfl

/-- The divisor, given a unit axis and repeated along the block, is read at (n, b). -/
theorem idx_v56_v57 (n : Fin 4096) (b : Fin 128) (j : Fin 32) : idx_main_v56 (idx_main_v57 (ix3 n b j)) = ix2 n b := by
  funext a
  match a with
  | ⟨0, _⟩ => rfl
  | ⟨1, _⟩ => rfl

/-- An entry divided by its block's divisor. -/
theorem w_v58 (x1 : WT) (n : Fin 4096) (b : Fin 128) (j : Fin 32) :
    val_main_v58 (F := Ideal) x1 (ix3 n b j)
      = Ideal.div (wrow x1 n (blockIdx b j)) (denom (wrow x1 n) b) := by
  rw [val_main_v58_apply, val_main_v57_apply, val_main_v56_apply, idx_v56_v57, w_v55, w_v47]
  rfl

/-- The quotient clipped to [-6, 6]. -/
theorem w_v59 (x1 : WT) (n : Fin 4096) (b : Fin 128) (j : Fin 32) :
    val_main_v59 (F := Ideal) x1 (ix3 n b j) = clipped (wrow x1 n) (blockIdx b j) := by
  rw [val_main_v59_apply, val_main_call9_v2_apply, w_v58]
  unfold clipped
  rw [blk_blockIdx, val_main_call9_v4_apply, val_main_call9_v1_apply]
  rfl

/-- The sign of the clipped quotient. -/
theorem w_v62 (x1 : WT) (n : Fin 4096) (b : Fin 128) (j : Fin 32) :
    val_main_v62 (F := Ideal) x1 (ix3 n b j) = sgn (clipped (wrow x1 n) (blockIdx b j)) := by
  rw [val_main_v62_apply, val_main_v61_apply, w_v59, val_main_v60_apply, val_main_call10_v0_apply,
    val_main_call10_v1_apply]
  rfl

/-- The absolute value of the clipped quotient. -/
theorem w_v63 (x1 : WT) (n : Fin 4096) (b : Fin 128) (j : Fin 32) :
    val_main_v63 (F := Ideal) x1 (ix3 n b j)
      = max (clipped (wrow x1 n) (blockIdx b j)) (-(clipped (wrow x1 n) (blockIdx b j))) := by
  rw [val_main_v63_apply, w_v59]
  rfl

/-- The seven nested selects are the ladder applied to the absolute value. -/
theorem w_v84 (x1 : WT) (n : Fin 4096) (b : Fin 128) (j : Fin 32) :
    val_main_v84 (F := Ideal) x1 (ix3 n b j)
      = level (max (clipped (wrow x1 n) (blockIdx b j)) (-(clipped (wrow x1 n) (blockIdx b j)))) := by
  rw [val_main_v84_apply, val_main_v83_apply, val_main_v82_apply, val_main_v81_apply, val_main_v80_apply,
    val_main_v79_apply, val_main_v78_apply,
    val_main_v65_apply, val_main_v67_apply, val_main_v69_apply, val_main_v71_apply, val_main_v73_apply,
    val_main_v75_apply, val_main_v77_apply, w_v63,
    val_main_v64_apply, val_main_v66_apply, val_main_v68_apply, val_main_v70_apply, val_main_v72_apply,
    val_main_v74_apply, val_main_v76_apply,
    val_main_call17_v0_apply, val_main_call16_v0_apply, val_main_call15_v0_apply, val_main_call14_v0_apply,
    val_main_call13_v0_apply, val_main_call12_v0_apply, val_main_call11_v0_apply, val_main_call11_v1_apply]
  rfl

/-- Sign times level. -/
theorem w_v85 (x1 : WT) (n : Fin 4096) (b : Fin 128) (j : Fin 32) :
    val_main_v85 (F := Ideal) x1 (ix3 n b j)
      = sgn (clipped (wrow x1 n) (blockIdx b j))
        * level (max (clipped (wrow x1 n) (blockIdx b j)) (-(clipped (wrow x1 n) (blockIdx b j)))) := by
  rw [val_main_v85_apply, w_v62, w_v84]
  rfl

/-- Position (n, b, j) of the blocked view is entry 32 * b + j of row n of the matrix. -/
theorem idx_v87 (n : Fin 4096) (b : Fin 128) (j : Fin 32) : idx_main_v87 (ix3 n b j) = ix2 n (blockIdx b j) := by
  funext a; apply Fin.ext
  have := n.isLt; have := b.isLt; have := j.isLt
  match a with
  | ⟨0, _⟩ => show ((n.val * 128 + b.val) * 32 + j.val) / 4096 = n.val; omega
  | ⟨1, _⟩ => show ((n.val * 128 + b.val) * 32 + j.val) % 4096 = b.val * 32 + j.val; omega

/-- Entry (n, k) of the matrix is position (n, k div 32, k mod 32) of the blocked array. -/
theorem idx_v86 (n : Fin 4096) (k : Fin 4096) : idx_main_v86 (ix2 n k) = ix3 n (blk k) (lane k) := by
  funext a; apply Fin.ext
  have := n.isLt; have := k.isLt
  match a with
  | ⟨0, _⟩ => show (n.val * 4096 + k.val) / 4096 = n.val; omega
  | ⟨1, _⟩ => show (n.val * 4096 + k.val) / 32 % 128 = k.val / 32; omega
  | ⟨2, _⟩ => show (n.val * 4096 + k.val) % 32 = k.val % 32; omega

/-- Entry (n, k) of the matrix is position (n, k div 32, k mod 32) of the blocked array. -/
theorem idx_v92 (n : Fin 4096) (k : Fin 4096) : idx_main_v92 (ix2 n k) = ix3 n (blk k) (lane k) := by
  funext a; apply Fin.ext
  have := n.isLt; have := k.isLt
  match a with
  | ⟨0, _⟩ => show (n.val * 4096 + k.val) / 4096 = n.val; omega
  | ⟨1, _⟩ => show (n.val * 4096 + k.val) / 32 % 128 = k.val / 32; omega
  | ⟨2, _⟩ => show (n.val * 4096 + k.val) % 32 = k.val % 32; omega

/-- Flattening the blocks and cutting them again changes nothing. -/
theorem w_v87 (x1 : WT) (n : Fin 4096) (b : Fin 128) (j : Fin 32) :
    val_main_v87 (F := Ideal) x1 (ix3 n b j) = val_main_v85 (F := Ideal) x1 (ix3 n b j) := by
  rw [val_main_v87_apply, val_main_v86_apply, idx_v87, idx_v86, blk_blockIdx, lane_blockIdx]

/-- The scale, given a unit axis and repeated along the block, is read at (n, b). -/
theorem idx_v88_v90 (n : Fin 4096) (b : Fin 128) (j : Fin 32) : idx_main_v88 (idx_main_v90 (ix3 n b j)) = ix2 n b := by
  funext a
  match a with
  | ⟨0, _⟩ => rfl
  | ⟨1, _⟩ => rfl

/-- Sign times level times the block's scale. -/
theorem w_v91 (x1 : WT) (n : Fin 4096) (b : Fin 128) (j : Fin 32) :
    val_main_v91 (F := Ideal) x1 (ix3 n b j)
      = (sgn (clipped (wrow x1 n) (blockIdx b j))
          * level (max (clipped (wrow x1 n) (blockIdx b j)) (-(clipped (wrow x1 n) (blockIdx b j)))))
        * scale (wrow x1 n) b := by
  rw [val_main_v91_apply, val_main_v89_apply, w_v87, w_v85, val_main_v90_apply, val_main_v88_apply,
    idx_v88_v90, w_v53]
  rfl

/-- The dequantised weights in matrix form: entry (n, k) is qd of row n at k. -/
theorem w_v92 (x1 : WT) (n : Fin 4096) (k : Fin 4096) :
    val_main_v92 (F := Ideal) x1 (ix2 n k) = qd (wrow x1 n) k := by
  rw [val_main_v92_apply, idx_v92, w_v91, blockIdx_blk_lane]
  rfl

/-! ## The product and the final shape -/

/-- Entry (b, s, n) of the result is entry (2048 * b + s, n) of the product matrix. -/
theorem idx_v94 (b : Fin 4) (s : Fin 2048) (n : Fin 4096) : idx_main_v94 (ix3 b s n) = ix2 (rowOf b s) n := by
  funext a; apply Fin.ext
  have := b.isLt; have := s.isLt; have := n.isLt
  match a with
  | ⟨0, _⟩ => show ((b.val * 2048 + s.val) * 4096 + n.val) / 4096 = b.val * 2048 + s.val; omega
  | ⟨1, _⟩ => show ((b.val * 2048 + s.val) * 4096 + n.val) % 4096 = n.val; omega

/-- At (r, n) and contraction coordinate k the product reads the activations at (r, k) … -/
theorem lidx_v93 (r : Fin 8192) (n k : Fin 4096) : lidx_main_v93 (ix2 r n) k = ix2 r k := by
  funext a
  match a with
  | ⟨0, _⟩ => rfl
  | ⟨1, _⟩ => rfl

/-- … and the weights at (n, k). -/
theorem ridx_v93 (r : Fin 8192) (n k : Fin 4096) : ridx_main_v93 (ix2 r n) k = ix2 n k := by
  funext a
  match a with
  | ⟨0, _⟩ => rfl
  | ⟨1, _⟩ => rfl

/-- The reference's last stage is the specification: entry (b, s, n) is the sum over k of the dequantised row
    2048 * b + s of the activations times the dequantised row n of the weights. -/
theorem ref_eq (x0 : (⟨Cert.ReferenceIdeal.S4x2048x4096, .f32⟩ : BufTy).Contents (Elt Ideal))
    (x1 : (⟨Cert.ReferenceIdeal.S4096x4096, .f32⟩ : BufTy).Contents (Elt Ideal)) :
    Cert.ReferenceIdeal.Read.val_main_v94 (F := Ideal) x0 x1 = Cert.BlockQuant.G x0 x1 := by
  funext i
  obtain ⟨b, s, n, rfl⟩ : ∃ (b : Fin 4) (s : Fin 2048) (n : Fin 4096), i = ix3 b s n := ⟨i 0, i 1, i 2, eq_ix3 i⟩
  rw [val_main_v94_apply, idx_v94, val_main_v93_apply]
  show _ = ∑ k : Fin 4096, qd (xrow x0 (rowOf b s)) k * qd (wrow x1 n) k
  refine Finset.sum_congr rfl fun k _ => ?_
  rw [lidx_v93, ridx_v93, x_v46, w_v92]

end Cert.RefValue

end
-- ==== Proof.LibTransposedDot.lean ====
/-
  A matrix product with the right operand transposed, read at an index (program-independent; imports only the library).

  For the dimension numbers of the product of an `[M, K]` matrix by the TRANSPOSE of an `[N, K]` matrix — each
  operand's second axis contracted, no batch axis — the contraction index is one coordinate `k : Fin K`, the left
  operand is read at `(r, k)` and the right one at `(j, k)`. So at the ideal values both the kernel's matrix product
  into a zero accumulator and the host's general product are, at `(r, j)`, the sum over `k` of the products of the
  entries `(r, k)` and `(j, k)`: the inner product of row `r` of the left operand with row `j` of the right one.
-/
import Idealize.ShloMosaic.Lib.ValueIdx
import Idealize.ShloMosaic.PureOps.Ideal.Laws

noncomputable section

namespace Cert.TransposedDot

open Idealize.ShloMosaic Idealize.ShloMosaic.ValueIdx

/-- The contraction index of such a product is its one coordinate. -/
abbrev contrFin (M K N : ℕ) : (DotDims.transposedRhs M K N).contr.Idx ≃ Fin K :=
  contrEquiv1 (DotDims.transposedRhs M K N) K rfl rfl

/-- At output `(r, j)` and contraction coordinate `k` the left operand is read at `(r, k)`. -/
theorem lhsIdx_transposedRhs (M K N : ℕ) (r : Fin M) (j : Fin N) (k : Fin K) :
    (DotDims.transposedRhs M K N).lhsIdx (ix2 r j) ((contrFin M K N).symm k) = ix2 r k := by
  funext a; apply Fin.ext
  match a with
  | ⟨0, _⟩ => rfl
  | ⟨1, _⟩ =>
    refine ((DotDims.transposedRhs M K N).lhsIdx_val_of_single (cl := (1 : Fin 2)) rfl (ix2 r j) _).trans ?_
    exact contrEquiv1_symm_val (DotDims.transposedRhs M K N) K rfl rfl k

/-- At output `(r, j)` and contraction coordinate `k` the right operand is read at `(j, k)`. -/
theorem rhsIdx_transposedRhs (M K N : ℕ) (r : Fin M) (j : Fin N) (k : Fin K) :
    (DotDims.transposedRhs M K N).rhsIdx (ix2 r j) ((contrFin M K N).symm k) = ix2 j k := by
  funext a; apply Fin.ext
  match a with
  | ⟨0, _⟩ => rfl
  | ⟨1, _⟩ =>
    refine ((DotDims.transposedRhs M K N).rhsIdx_val_of_single (cr := (1 : Fin 2)) rfl (ix2 r j) _).trans ?_
    exact contrEquiv1_symm_val (DotDims.transposedRhs M K N) K rfl rfl k

/-- The contraction's sum of such a product at `(r, j)`, over the coordinate `k`. -/
theorem sum_transposedRhs {M K N : ℕ} (L : (⟨2, ![M, K]⟩ : Shape).Idx → EReal) (R : (⟨2, ![N, K]⟩ : Shape).Idx → EReal)
    (r : Fin M) (j : Fin N) :
    (∑ q : (DotDims.transposedRhs M K N).contr.Idx,
        L ((DotDims.transposedRhs M K N).lhsIdx (ix2 r j) q) * R ((DotDims.transposedRhs M K N).rhsIdx (ix2 r j) q))
      = ∑ k : Fin K, L (ix2 r k) * R (ix2 j k) := by
  rw [← Equiv.sum_comp (contrFin M K N).symm]
  exact Finset.sum_congr rfl fun k _ => by rw [lhsIdx_transposedRhs, rhsIdx_transposedRhs]

/-- At the ideal values the kernel's matrix product into the zero accumulator, read at `(r, j)`. -/
theorem matmul_transposedRhs_apply {M K N : ℕ} {φ₁ φ₂ : FTy} (prec : Option ContractPrecision)
    (lhs : FVec Ideal ⟨2, ![M, K]⟩ φ₁) (rhs : FVec Ideal ⟨2, ![N, K]⟩ φ₂) (r : Fin M) (j : Fin N) :
    FloatOps.matmul (DotDims.transposedRhs M K N) prec lhs rhs (constant ⟨2, ![M, N]⟩ .f32 0x00000000#32) (ix2 r j)
      = ∑ k : Fin K, lhs (ix2 r k) * rhs (ix2 j k) :=
  (Ideal.matmul_constant_zero_apply _ prec lhs rhs (ix2 r j)).trans (sum_transposedRhs lhs rhs r j)

/-- At the ideal values the host's general product, read at `(r, j)`. -/
theorem dotGeneral_transposedRhs_apply {M K N : ℕ} {φ₁ φ₂ : FTy} (prec : Option ContractPrecision) (sched : HostSchedule)
    (lhs : FVec Ideal ⟨2, ![M, K]⟩ φ₁) (rhs : FVec Ideal ⟨2, ![N, K]⟩ φ₂) (r : Fin M) (j : Fin N) :
    FloatOps.dotGeneral (DotDims.transposedRhs M K N) prec sched lhs rhs (ix2 r j)
      = ∑ k : Fin K, lhs (ix2 r k) * rhs (ix2 j k) :=
  (Ideal.dotGeneral_apply _ prec sched lhs rhs (ix2 r j)).trans (sum_transposedRhs lhs rhs r j)

end Cert.TransposedDot

end
-- ==== Proof.PayloadValue.lean ====
/-
  The three kernel bodies' arithmetic, read at an index, at the ideal values.

  The two quantising bodies take a block of 128 rows of 4096 entries, view each row as 128 blocks of 32, take each
  block's largest absolute value, form the block's scale and divisor, multiply every entry by the reciprocal of its
  block's divisor, clip, round the absolute value down the ladder, restore the sign and multiply by the scale. Read at
  (p, k) this is the specification's quantise-dequantise of row p at column k: the views are row-major re-indexings
  (column k is entry k mod 32 of block k / 32), the maximum along the last axis is the fold of max over the block, a
  change of float format is the identity, and multiplying by the reciprocal of the divisor is dividing by it because
  the divisor is never zero. The matrix-product body adds to entry (p, q) of its accumulator the inner product of row
  p of the left block with row q of the right block, and resets the accumulator to the zero pattern.
-/
import proofs.«101090_j15023795602200_2_alg».proof.Proof.Gen.KernelIdeal.Skeleton
import proofs.«101090_j15023795602200_2_alg».proof.Proof.Spec
import proofs.«101090_j15023795602200_2_alg».proof.Proof.LibMergeAxes
import proofs.«101090_j15023795602200_2_alg».proof.Proof.LibTransposedDot

noncomputable section

namespace Cert.PayloadValue

open Idealize.ShloMosaic Idealize.ShloMosaic.ValueIdx Cert.KernelIdeal Cert.KernelIdeal.Gen

/-! ## Rows of 4096 cut into 128 blocks of 32 -/

section Layout
variable {α : Type}

/-- The block [128, 4096] viewed as [128, 128, 32]: entry j of block b of row p is column 32 * b + j of that row. -/
theorem split_apply (x : S128x4096.Idx → α) (h : S128x4096.ShapeCasts S128x128x32) (p b : Fin 128) (j : Fin 32) :
    shapeCast S128x128x32 x h (ix3 p b j) = x (ix2 p (BlockQuant.blockIdx b j)) :=
  shapeCast_apply x h _ _ (by
    rw [Shape.rowMajor_val_two, Shape.rowMajor_val_three]
    show p.val * 4096 + (b.val * 32 + j.val) = (p.val * 128 + b.val) * 32 + j.val
    omega)

/-- The array [128, 128, 32] viewed back as [128, 4096]: column k of row p is entry k mod 32 of block k / 32. -/
theorem merge_apply (y : S128x128x32.Idx → α) (h : S128x128x32.ShapeCasts S128x4096) (p : Fin 128) (k : Fin 4096) :
    shapeCast S128x4096 y h (ix2 p k)
      = y (ix3 p (BlockQuant.blk k) (⟨k.val % 32, Nat.mod_lt _ (by decide)⟩ : Fin 32)) :=
  shapeCast_apply y h _ _ (by
    rw [Shape.rowMajor_val_three, Shape.rowMajor_val_two]
    show (p.val * 128 + k.val / 32) * 32 + k.val % 32 = p.val * 4096 + k.val
    omega)

/-- A quantity per block, [128, 128], given a trailing unit axis, repeated over the 32 entries of every block and viewed
    as [128, 4096]: column k of row p reads the value of its block k / 32. -/
theorem spread_apply (z : S128x128.Idx → α) (h1 : S128x128.ShapeCasts S128x128x1) (h2 : S128x128x1.ShapeCasts S128x128x1)
    (hb : S128x128x1.Broadcasts S128x128x32) (h3 : S128x128x32.ShapeCasts S128x4096) (p : Fin 128) (k : Fin 4096) :
    shapeCast S128x4096 (broadcastTo S128x128x32 (shapeCast S128x128x1 (shapeCast S128x128x1 z h1) h2) hb) h3 (ix2 p k)
      = z (ix2 p (BlockQuant.blk k)) := by
  refine (merge_apply _ h3 p k).trans ?_
  refine (MergeAxes.broadcastTo_ab1_abc_apply _ hb p _ _).trans ?_
  refine (congrFun (shapeCast_self _ h2) _).trans ?_
  exact MergeAxes.shapeCast_ab_ab1_apply z h1 p _ _

end Layout

/-! ## The quantising body over one block of 128 rows -/

/-- The largest absolute value of block b of row p. -/
theorem amax_apply (x : FVec Ideal S128x4096 .f32) (p b : Fin 128) :
    multiReduction (F := Ideal) .maximumf [2] S128x128 (absf (shapeCast S128x128x32 x shapeCasts_S128x4096_S128x128x32))
        0xFF800000#32 reduces_S128x128x32_S128x128 (.inl rfl) rfl (ix2 p b)
      = BlockQuant.amax (fun k' => x (ix2 p k')) b := by
  refine (MergeAxes.multiReduction_max_last _ _ _ _ _ p b).trans ?_
  unfold BlockQuant.amax
  refine congrArg (fun f => Finset.fold max (BlockQuant.lit 0xFF800000#32) f Finset.univ) (funext fun j => ?_)
  exact congrArg (fun t => max t (-t)) (split_apply x _ p b j)

/-- The scale of block b of row p. -/
theorem scale_apply (x : FVec Ideal S128x4096 .f32) (p b : Fin 128) :
    k1_pay2 (F := Ideal) x (ix2 p b) = BlockQuant.scale (fun k' => x (ix2 p k')) b := by
  unfold k1_pay2 BlockQuant.scale
  exact congrArg (fun t => Ideal.div (max t (BlockQuant.lit 0x2B8CBCCC#32)) (BlockQuant.lit 0x40C00000#32))
    (amax_apply x p b)

/-- The scale as the body lays it out over the row: column k reads its block's scale. -/
theorem scale_row_apply (x : FVec Ideal S128x4096 .f32) (p : Fin 128) (k : Fin 4096) :
    k1_pay3 (F := Ideal) x (ix2 p k) = BlockQuant.scale (fun k' => x (ix2 p k')) (BlockQuant.blk k) := by
  unfold k1_pay3
  exact (spread_apply _ _ _ _ _ p k).trans (scale_apply x p (BlockQuant.blk k))

/-- The clipped quotient: the body multiplies by the reciprocal of the block's divisor, which is dividing by it. -/
theorem clipped_apply (x : FVec Ideal S128x4096 .f32) (p : Fin 128) (k : Fin 4096) :
    k1_pay4 (F := Ideal) x (ix2 p k) = BlockQuant.clipped (fun k' => x (ix2 p k')) k := by
  unfold k1_pay4
  refine (congrArg (fun t => BlockQuant.clip (x (ix2 p k) * t)) (spread_apply _ _ _ _ _ p k)).trans ?_
  refine (congrArg (fun t => BlockQuant.clip (x (ix2 p k)
      * Ideal.div (BlockQuant.lit 0x3F800000#32) (max t (BlockQuant.lit 0x2B8CBCCC#32))))
    (scale_apply x p (BlockQuant.blk k))).trans ?_
  exact congrArg BlockQuant.clip (BlockQuant.mul_inv_denom _ _ _)

/-- What the weight-quantising body stores from a loaded block: the last payload over the others. -/
def quant1 (x0 : Vec Ideal S128x4096 .f32) : Vec Ideal S128x4096 .bf16 :=
  k1_pay1 (k1_pay3 x0) (k1_pay5 x0) (k1_pay6 x0) (k1_pay7 x0) (k1_pay8 x0) (k1_pay9 x0) (k1_pay10 x0) (k1_pay11 x0)
    (Scalar.ofBits (F := Ideal) .f32 0x40600000#32)

/-- The stored block is each row quantised and dequantised block by block: sign times level times scale. -/
theorem quant1_apply (x0 : Vec Ideal S128x4096 .f32) (p : Fin 128) (k : Fin 4096) :
    quant1 x0 (ix2 p k) = BlockQuant.qd (fun k' => x0 (ix2 p k')) k := by
  have hc : k1_pay4 (F := Ideal) x0 (ix2 p k) = BlockQuant.clipped (fun k' => x0 (ix2 p k')) k := clipped_apply x0 p k
  have hs : k1_pay3 (F := Ideal) x0 (ix2 p k) = BlockQuant.scale (fun k' => x0 (ix2 p k')) (BlockQuant.blk k) :=
    scale_row_apply x0 p k
  show (BlockQuant.sgn (k1_pay4 (F := Ideal) x0 (ix2 p k))
      * BlockQuant.level (max (k1_pay4 (F := Ideal) x0 (ix2 p k)) (-(k1_pay4 (F := Ideal) x0 (ix2 p k)))))
      * k1_pay3 (F := Ideal) x0 (ix2 p k) = _
  rw [hc, hs]
  rfl

/-- What the activation-quantising body stores from a loaded block: the last payload over the others. -/
def quant0 (x0 : Vec Ideal S128x4096 .f32) : Vec Ideal S128x4096 .bf16 :=
  k0_pay1 (k0_pay4 x0) (k0_pay6 x0) (k0_pay7 x0) (k0_pay8 x0) (k0_pay9 x0) (k0_pay10 x0) (k0_pay11 x0) (k0_pay12 x0)

/-- The two bodies are the same arithmetic: the activations' one first passes its block through a cast to its own shape,
    and carries the threshold 7/2 inside instead of receiving it. -/
theorem quant0_eq_quant1 (x0 : Vec Ideal S128x4096 .f32) : quant0 x0 = quant1 (k0_pay2 (F := Ideal) x0) := rfl

/-- The stored block is each row quantised and dequantised block by block. -/
theorem quant0_apply (x0 : Vec Ideal S128x4096 .f32) (p : Fin 128) (k : Fin 4096) :
    quant0 x0 (ix2 p k) = BlockQuant.qd (fun k' => x0 (ix2 p k')) k := by
  have e : k0_pay2 (F := Ideal) x0 = x0 := shapeCast_self _ _
  refine (congrFun (quant0_eq_quant1 x0) (ix2 p k)).trans ?_
  rw [e]
  exact quant1_apply x0 p k

/-! ## The matrix-product body -/

/-- The printed dimension numbers are those of a product by the transpose of the right operand. -/
theorem dot_eq_transposedRhs :
    dot_S1024x2048_S1024x2048_S1024x1024_1_1_0_0_n_n = DotDims.transposedRhs 1024 2048 1024 := rfl

/-- The value the accumulator is reset to: the zero pattern at every entry. -/
theorem k2_pay1_apply (p q : Fin 1024) :
    k2_pay1 (F := Ideal) (ix2 p q) = Ideal.ofBits .f32 0x00000000#32 := by
  unfold k2_pay1
  exact congrFun (shapeCast_self _ _) _

/-- One accumulation step: the entry (p, q) grows by the inner product of row p of the left block with row q of the
    right block. -/
theorem k2_pay2_apply (v3 : Vec Ideal S1024x1024 .f32) (v4 v6 : Vec Ideal S1024x2048 .bf16) (p q : Fin 1024) :
    k2_pay2 v3 v4 v6 (ix2 p q) = v3 (ix2 p q) + ∑ k : Fin 2048, v4 (ix2 p k) * v6 (ix2 q k) := by
  unfold k2_pay2
  refine (congrFun (shapeCast_self _ _) _).trans ?_
  refine (addf_apply _ _ _).trans ?_
  refine congrArg (fun t => v3 (ix2 p q) + t) ?_
  rw [shapeCast_self, shapeCast_self]
  exact Cert.TransposedDot.matmul_transposedRhs_apply none v4 v6 p q

end Cert.PayloadValue

end
-- ==== Proof.LibBlockAccum.lean ====
/-
  A sum over `n · b` consecutive terms, accumulated one block of `b` terms at a time.

  For a commutative additive monoid, the sum of `a i` over `i < n · b` is the sum over the blocks `k < n` of the block
  sums `∑ d < b, a (b · k + d)` (`sum_blocks`: the index `i` is `b · k + d` for exactly one pair `(k, d)`). A running total
  `A` that starts as `0` plus the first block sum and then adds one block sum per step is, after step `k`, the sum of
  the first `k + 1` block sums (`accum_range`); after the last step, `n - 1`, it is the whole sum (`accum_eq_sum`, and
  `accum_eq_sum_of_blocks` with the block sums named). The two instances at the bottom are `n = 4, b = 1024` over
  `Fin 4096` and `n = 8, b = 2048` over `Fin 16384`.
-/
import Mathlib.Algebra.BigOperators.Fin
import Mathlib.Logic.Equiv.Fin.Basic

open scoped BigOperators

namespace Cert.BlockAccum

variable {β : Type*} [AddCommMonoid β]

/-- Term `d` of block `k` lies below `n · b`. -/
theorem blk_lt {n b k : ℕ} (hk : k < n) (d : Fin b) : b * k + d.val < n * b := by
  have hd := d.isLt
  calc b * k + d.val < b * k + b := Nat.add_lt_add_left hd _
    _ = b * (k + 1) := (Nat.mul_succ b k).symm
    _ ≤ b * n := Nat.mul_le_mul_left b hk
    _ = n * b := Nat.mul_comm b n

/-- A sum over `n · b` terms is the sum over the `n` blocks of the sums over each block's `b` terms. -/
theorem sum_blocks (n b : ℕ) (a : Fin (n * b) → β) :
    ∑ i : Fin (n * b), a i = ∑ k : Fin n, ∑ d : Fin b, a ⟨b * k.val + d.val, blk_lt k.isLt d⟩ := by
  rw [← Fintype.sum_prod_type', ← Equiv.sum_comp (finProdFinEquiv (m := n) (n := b)) a]
  refine Fintype.sum_congr _ _ fun p => ?_
  refine congrArg a (Fin.ext ?_)
  show p.2.val + b * p.1.val = b * p.1.val + p.2.val
  exact Nat.add_comm _ _

/-- A running total that starts as `0 + s 0` and adds `s (k + 1)` at step `k + 1` is, after step `k`, the sum of
    `s 0, …, s k`. -/
theorem accum_range {n : ℕ} (A s : ℕ → β) (h0 : A 0 = 0 + s 0)
    (hs : ∀ k, k + 1 < n → A (k + 1) = A k + s (k + 1)) :
    ∀ k, k < n → A k = ∑ j ∈ Finset.range (k + 1), s j := by
  intro k
  induction k with
  | zero => intro _; rw [h0, zero_add, Finset.sum_range_one]
  | succ k ih =>
    intro hk
    rw [hs k hk, ih (Nat.lt_of_succ_lt hk), Finset.sum_range_succ _ (k + 1)]

/-- … so after the last step, `n - 1`, it is the sum of all `n` of them. -/
theorem accum_last {n : ℕ} (hn : 0 < n) (A s : ℕ → β) (h0 : A 0 = 0 + s 0)
    (hs : ∀ k, k + 1 < n → A (k + 1) = A k + s (k + 1)) :
    A (n - 1) = ∑ k : Fin n, s k.val := by
  rw [accum_range A s h0 hs (n - 1) (Nat.sub_lt hn Nat.one_pos), Nat.sub_add_cancel hn, Finset.sum_range]

/-- BLOCK ACCUMULATION, the block sums named: if `s k` is the sum of block `k` of `a` for every `k < n`, and the running
    total `A` starts as `0 + s 0` and adds `s (k + 1)` at step `k + 1`, then after step `n - 1` it is the sum of all of
    `a`. -/
theorem accum_eq_sum_of_blocks {n b : ℕ} (hn : 0 < n) (a : Fin (n * b) → β) (A s : ℕ → β)
    (hblk : ∀ k (hk : k < n), s k = ∑ d : Fin b, a ⟨b * k + d.val, blk_lt hk d⟩)
    (h0 : A 0 = 0 + s 0) (hs : ∀ k, k + 1 < n → A (k + 1) = A k + s (k + 1)) :
    A (n - 1) = ∑ i : Fin (n * b), a i := by
  rw [accum_last hn A s h0 hs, sum_blocks]
  exact Fintype.sum_congr _ _ fun k => hblk k.val k.isLt

/-- BLOCK ACCUMULATION: a running total that starts as `0` plus the sum of block `0` of `a` and adds the sum of block
    `k + 1` at step `k + 1` is, after step `n - 1`, the sum of all of `a`. -/
theorem accum_eq_sum {n b : ℕ} (hn : 0 < n) (a : Fin (n * b) → β) (A : ℕ → β)
    (h0 : A 0 = 0 + ∑ d : Fin b, a ⟨b * 0 + d.val, blk_lt hn d⟩)
    (hs : ∀ k (hk : k + 1 < n), A (k + 1) = A k + ∑ d : Fin b, a ⟨b * (k + 1) + d.val, blk_lt hk d⟩) :
    A (n - 1) = ∑ i : Fin (n * b), a i := by
  refine accum_eq_sum_of_blocks hn a A
    (fun k => if hk : k < n then ∑ d : Fin b, a ⟨b * k + d.val, blk_lt hk d⟩ else 0)
    (fun k hk => dif_pos hk) ?_ ?_
  · beta_reduce; rw [dif_pos hn]; exact h0
  · intro k hk; beta_reduce; rw [dif_pos hk]; exact hs k hk

/-- Four blocks of 1024 terms: the total after step 3 is the sum of all 4096 terms. -/
theorem accum_eq_sum_4_1024 (a : Fin 4096 → β) (A : ℕ → β)
    (h0 : A 0 = 0 + ∑ d : Fin 1024, a ⟨1024 * 0 + d.val, by omega⟩)
    (hs : ∀ k (hk : k + 1 < 4), A (k + 1) = A k + ∑ d : Fin 1024, a ⟨1024 * (k + 1) + d.val, by omega⟩) :
    A 3 = ∑ i : Fin 4096, a i :=
  accum_eq_sum (n := 4) (b := 1024) (by decide) a A h0 hs

/-- Eight blocks of 2048 terms: the total after step 7 is the sum of all 16384 terms. -/
theorem accum_eq_sum_8_2048 (a : Fin 16384 → β) (A : ℕ → β)
    (h0 : A 0 = 0 + ∑ d : Fin 2048, a ⟨2048 * 0 + d.val, by omega⟩)
    (hs : ∀ k (hk : k + 1 < 8), A (k + 1) = A k + ∑ d : Fin 2048, a ⟨2048 * (k + 1) + d.val, by omega⟩) :
    A 7 = ∑ i : Fin 16384, a i :=
  accum_eq_sum (n := 8) (b := 2048) (by decide) a A h0 hs

end Cert.BlockAccum
-- ==== Proof.KernelValue.lean ====
/-
  From blocks to arrays, at the ideal values: what each of the three regions leaves in its output array, as one
  function of the arrays the region finds.

  Regions 0 and 1 cut their array into blocks of 128 whole rows; point t reads block t, stores its rows quantised and
  dequantised, and writes block t of the output back, so the output array is every row quantised and dequantised.
  Region 2 walks an 8 x 4 x 2 grid in row-major order; a pair of points 2u, 2u + 1 shares a [1024, 1024] block of the
  output and the rows of both operands, and holds the first and the second half of the contracted axis; the
  accumulator after the odd point is the zero block plus the two halves' inner products, which is one sum over all
  4096 columns, and only the odd points write back. In each region every index of the output array lies in the block
  of some point that writes back, so the array ends holding the function.
-/
import proofs.«101090_j15023795602200_2_alg».proof.Proof.PayloadValue
import proofs.«101090_j15023795602200_2_alg».proof.Proof.Spec
import proofs.«101090_j15023795602200_2_alg».proof.Proof.LibBlockAccum
import proofs.«101090_j15023795602200_2_alg».proof.Proof.Region0
import proofs.«101090_j15023795602200_2_alg».proof.Proof.Region1
import proofs.«101090_j15023795602200_2_alg».proof.Proof.Region2
import Idealize.ShloMosaic.Lib.Pipeline.Value

noncomputable section

namespace Cert.KernelValue

open Cert.KernelIdeal Cert.KernelIdeal.Gen Cert.BlockQuant Idealize.ShloMosaic Idealize.ShloMosaic.ValueIdx
open Idealize.ShloMosaic.TcCoe Idealize.SL.Sem
open Idealize.ShloMosaic.Pipeline (Dat)
open Cert.PayloadValue

-- the TensorCore's buffer contents when a region is entered
variable (V : (c : Dev nD) → (b : Ref sig .tc) → Buf (Elt Ideal) ((c : Thread nD τ).loc b))

theorem off_zero : (![0, 0] : Fin 2 → Nat) = fun _ => 0 := funext fun a => by fin_cases a <;> rfl

/-- Every row of an array of rows of 4096 entries quantised and dequantised. -/
def rowsQd {n : ℕ} (A : (⟨2, ![n, 4096]⟩ : Shape).Idx → EReal) : (⟨2, ![n, 4096]⟩ : Shape).Idx → EReal :=
  fun i => qd (fun k' => A (ix2 (i 0 : Fin n) k')) (i 1 : Fin 4096)

/-- The contraction of two rows. -/
def rowDot (a b : Fin 4096 → EReal) : EReal := ∑ k : Fin 4096, a k * b k

/-! ## The activations quantised: region 0 -/

/-- The printed index maps over the 64 points: point t reads and writes the block of rows 128 t .. 128 t + 127, all
    columns. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One entry of a stored block: if the loaded block's row is a row of the array and the columns agree, the entry is
    that row's quantise-dequantise at that column. -/
theorem quant0_rows {n : ℕ} (A : (⟨2, ![n, 4096]⟩ : Shape).Idx → EReal) (x0 : Vec Ideal S128x4096 .f32) (y : S128x4096.Idx)
    (i : (⟨2, ![n, 4096]⟩ : Shape).Idx) (h1 : (i 1).val = (y 1).val)
    (hx : ∀ k' : Fin 4096, x0 (ix2 (y 0 : Fin 128) k') = A (ix2 (i 0 : Fin n) k')) :
    quant0 x0 y = rowsQd A i := by
  obtain ⟨p, k, rfl⟩ : ∃ (p : Fin 128) (k : Fin 4096), y = ix2 p k := ⟨y 0, y 1, eq_ix2 y⟩
  obtain ⟨r, m, rfl⟩ : ∃ (r : Fin n) (m : Fin 4096), i = ix2 r m := ⟨i 0, i 1, eq_ix2 i⟩
  have hm : m = k := Fin.ext h1
  subst hm
  refine (quant0_apply x0 p m).trans ?_
  show qd (fun k' => x0 (ix2 p k')) m = qd (fun k' => A (ix2 r k')) m
  exact congrArg (fun f => qd f m) (funext hx)

/-- What point t writes back is its block of the array of quantised rows. -/
theorem flushed0_eq (c : Dev nD) (t : Fin cfg0.N) :
    (Region0.dat V c).flushed 1 t = ((cfg0.win 1).blk t).view.read (Elt Ideal) (rowsQd (V c main_v0)) := by
  show (cfg0.win 1).cut (grid0.coords t) ((Region0.dat V c).after 1 t) = _
  rw [Region0.after_1]
  unfold Region0.out
  rw [View.canon_unit_zero off_zero]
  simp only [View.ld_unit_zero (S := S128x4096) off_zero]
  obtain ⟨e0, e1, e2, e3⟩ := idx0 t
  funext j
  show quant0 (Region0.iblk V c 0 t) ((cfg0.win 1).xinj (grid0.coords t) j)
    = rowsQd (V c main_v0) (((cfg0.win 1).blk t).view.emb j)
  refine quant0_rows (V c main_v0) _ _ _ ?_ ?_
  · show win0_1.index t (1 : Fin 2) * 4096 + 1 * (j 1).val = (j 1).val
    omega
  · intro k'
    show V c main_v0 (((cfg0.win 0).blk t).view.emb (ix2 (⟨(j 0).val, (j 0).isLt⟩ : Fin 128) k')) = _
    refine congrArg (V c main_v0) (funext fun a => Fin.ext ?_)
    match a with
    | ⟨0, _⟩ =>
      show win0_0.index t (0 : Fin 2) * 128 + 1 * (j 0).val = win0_1.index t (0 : Fin 2) * 128 + 1 * (j 0).val
      omega
    | ⟨1, _⟩ =>
      show win0_0.index t (1 : Fin 2) * 4096 + 1 * k'.val = k'.val
      omega

/-- An index of the array is in point t's block iff each coordinate is in the block's range on its axis. -/
theorem mem_blk0 (t : Fin cfg0.N) (i : S8192x4096.Idx) :
    i ∈ ((cfg0.win 1).blk t).view.set ↔ ∀ a : Fin 2, win0_1.index t a * S128x4096.size a ≤ (i a).val
      ∧ (i a).val < win0_1.index t a * S128x4096.size a + S128x4096.size a := by
  show i ∈ ((View.whole main_v1).slice (win0_1.rect t)).set ↔ _
  rw [View.set_slice_whole, Rect.mem_set_unit]
  exact Iff.rfl

/-- Row r lies in the block of the point r / 128. -/
theorem cover0 (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hlt : (i 0).val / 128 < grid0.N := by rw [N_0]; omega
  obtain ⟨e0, e1, e2, e3⟩ := idx0 ⟨(i 0).val / 128, hlt⟩
  refine ⟨⟨(i 0).val / 128, hlt⟩, flush0_1 _, ?_⟩
  rw [mem_blk0]
  intro a
  match a with
  | ⟨0, _⟩ =>
    show win0_1.index ⟨(i 0).val / 128, hlt⟩ (0 : Fin 2) * 128 ≤ (i 0).val
      ∧ (i 0).val < win0_1.index ⟨(i 0).val / 128, hlt⟩ (0 : Fin 2) * 128 + 128
    rw [e2]
    show (i 0).val / 128 * 128 ≤ (i 0).val ∧ (i 0).val < (i 0).val / 128 * 128 + 128
    omega
  | ⟨1, _⟩ =>
    show win0_1.index ⟨(i 0).val / 128, hlt⟩ (1 : Fin 2) * 4096 ≤ (i 1).val
      ∧ (i 1).val < win0_1.index ⟨(i 0).val / 128, hlt⟩ (1 : Fin 2) * 4096 + 4096
    omega

/-- The activations' array after region 0: every row quantised and dequantised. -/
theorem final0 (c : Dev nD) :
    (Region0.dat V c).arrAt 1 cfg0.N
      = fun i : S8192x4096.Idx => qd (fun k' => V c main_v0 (ix2 (i 0 : Fin 8192) k')) (i 1 : Fin 4096) :=
  (Region0.dat V c).arrAt_eq_of_cover 1 (rowsQd (V c main_v0)) (fun t _ => flushed0_eq V c t) cover0

/-! ## The weights quantised: region 1 -/

/-- The printed index maps over the 32 points: point t reads and writes the block of rows 128 t .. 128 t + 127, all
    columns. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- One entry of a stored block: if the loaded block's row is a row of the array and the columns agree, the entry is
    that row's quantise-dequantise at that column. -/
theorem quant1_rows {n : ℕ} (A : (⟨2, ![n, 4096]⟩ : Shape).Idx → EReal) (x0 : Vec Ideal S128x4096 .f32) (y : S128x4096.Idx)
    (i : (⟨2, ![n, 4096]⟩ : Shape).Idx) (h1 : (i 1).val = (y 1).val)
    (hx : ∀ k' : Fin 4096, x0 (ix2 (y 0 : Fin 128) k') = A (ix2 (i 0 : Fin n) k')) :
    quant1 x0 y = rowsQd A i := by
  obtain ⟨p, k, rfl⟩ : ∃ (p : Fin 128) (k : Fin 4096), y = ix2 p k := ⟨y 0, y 1, eq_ix2 y⟩
  obtain ⟨r, m, rfl⟩ : ∃ (r : Fin n) (m : Fin 4096), i = ix2 r m := ⟨i 0, i 1, eq_ix2 i⟩
  have hm : m = k := Fin.ext h1
  subst hm
  refine (quant1_apply x0 p m).trans ?_
  show qd (fun k' => x0 (ix2 p k')) m = qd (fun k' => A (ix2 r k')) m
  exact congrArg (fun f => qd f m) (funext hx)

/-- What point t writes back is its block of the array of quantised rows. -/
theorem flushed1_eq (c : Dev nD) (t : Fin cfg1.N) :
    (Region1.dat V c).flushed 1 t = ((cfg1.win 1).blk t).view.read (Elt Ideal) (rowsQd (V c main_arg1)) := by
  show (cfg1.win 1).cut (grid1.coords t) ((Region1.dat V c).after 1 t) = _
  rw [Region1.after_1]
  unfold Region1.out
  rw [View.canon_unit_zero off_zero]
  simp only [View.ld_unit_zero (S := S128x4096) off_zero]
  obtain ⟨e0, e1, e2, e3⟩ := idx1 t
  funext j
  show quant1 (Region1.iblk V c 0 t) ((cfg1.win 1).xinj (grid1.coords t) j)
    = rowsQd (V c main_arg1) (((cfg1.win 1).blk t).view.emb j)
  refine quant1_rows (V c main_arg1) _ _ _ ?_ ?_
  · show win1_1.index t (1 : Fin 2) * 4096 + 1 * (j 1).val = (j 1).val
    omega
  · intro k'
    show V c main_arg1 (((cfg1.win 0).blk t).view.emb (ix2 (⟨(j 0).val, (j 0).isLt⟩ : Fin 128) k')) = _
    refine congrArg (V c main_arg1) (funext fun a => Fin.ext ?_)
    match a with
    | ⟨0, _⟩ =>
      show win1_0.index t (0 : Fin 2) * 128 + 1 * (j 0).val = win1_1.index t (0 : Fin 2) * 128 + 1 * (j 0).val
      omega
    | ⟨1, _⟩ =>
      show win1_0.index t (1 : Fin 2) * 4096 + 1 * k'.val = k'.val
      omega

/-- An index of the array is in point t's block iff each coordinate is in the block's range on its axis. -/
theorem mem_blk1 (t : Fin cfg1.N) (i : S4096x4096.Idx) :
    i ∈ ((cfg1.win 1).blk t).view.set ↔ ∀ a : Fin 2, win1_1.index t a * S128x4096.size a ≤ (i a).val
      ∧ (i a).val < win1_1.index t a * S128x4096.size a + S128x4096.size a := by
  show i ∈ ((View.whole main_v2).slice (win1_1.rect t)).set ↔ _
  rw [View.set_slice_whole, Rect.mem_set_unit]
  exact Iff.rfl

/-- Row r lies in the block of the point r / 128. -/
theorem cover1 (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  have hlt : (i 0).val / 128 < grid1.N := by rw [N_1]; omega
  obtain ⟨e0, e1, e2, e3⟩ := idx1 ⟨(i 0).val / 128, hlt⟩
  refine ⟨⟨(i 0).val / 128, hlt⟩, flush1_1 _, ?_⟩
  rw [mem_blk1]
  intro a
  match a with
  | ⟨0, _⟩ =>
    show win1_1.index ⟨(i 0).val / 128, hlt⟩ (0 : Fin 2) * 128 ≤ (i 0).val
      ∧ (i 0).val < win1_1.index ⟨(i 0).val / 128, hlt⟩ (0 : Fin 2) * 128 + 128
    rw [e2]
    show (i 0).val / 128 * 128 ≤ (i 0).val ∧ (i 0).val < (i 0).val / 128 * 128 + 128
    omega
  | ⟨1, _⟩ =>
    show win1_1.index ⟨(i 0).val / 128, hlt⟩ (1 : Fin 2) * 4096 ≤ (i 1).val
      ∧ (i 1).val < win1_1.index ⟨(i 0).val / 128, hlt⟩ (1 : Fin 2) * 4096 + 4096
    omega

/-- The weights' array after region 1: every row quantised and dequantised. -/
theorem final1 (c : Dev nD) :
    (Region1.dat V c).arrAt 1 cfg1.N
      = fun i : S4096x4096.Idx => qd (fun k' => V c main_arg1 (ix2 (i 0 : Fin 4096) k')) (i 1 : Fin 4096) :=
  (Region1.dat V c).arrAt_eq_of_cover 1 (rowsQd (V c main_arg1)) (fun t _ => flushed1_eq V c t) cover1

/-! ## The product accumulated over the two halves of the contracted axis: region 2 -/

/-- The printed index maps over the 64 points of the 8 x 4 x 2 grid in row-major order: point t has coordinates
    (t / 8, t / 2 mod 4, t mod 2); the left window moves with the first and the last, the right one with the second
    and the last, the output with the first two. -/
theorem idx2 : ∀ t : Fin cfg2.N, win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 2) = t.val / 8 ∧ win2_2.index t (1 : Fin 2) = t.val / 2 % 4 :=
  (by decide +kernel : ∀ t : Fin grid2.N, _)

/-- One entry of the accumulator after a pair of points: the zero block plus the first half's inner product plus the
    second half's is the contraction of the two whole rows. -/
theorem acc_pair (X W : Fin 4096 → EReal) (a0 a1 b0 b1 : Vec Ideal S1024x2048 .bf16) (y : S1024x1024.Idx)
    (hA0 : ∀ k : Fin 2048, a0 (ix2 (y 0 : Fin 1024) k) = X ⟨2048 * 0 + k.val, by have := k.isLt; omega⟩)
    (hA1 : ∀ k : Fin 2048, a1 (ix2 (y 0 : Fin 1024) k) = X ⟨2048 * 1 + k.val, by have := k.isLt; omega⟩)
    (hB0 : ∀ k : Fin 2048, b0 (ix2 (y 1 : Fin 1024) k) = W ⟨2048 * 0 + k.val, by have := k.isLt; omega⟩)
    (hB1 : ∀ k : Fin 2048, b1 (ix2 (y 1 : Fin 1024) k) = W ⟨2048 * 1 + k.val, by have := k.isLt; omega⟩) :
    k2_pay2 (k2_pay2 (k2_pay1 (F := Ideal)) a0 b0) a1 b1 y = rowDot X W := by
  obtain ⟨p, q, rfl⟩ : ∃ (p q : Fin 1024), y = ix2 p q := ⟨y 0, y 1, eq_ix2 y⟩
  rw [k2_pay2_apply, k2_pay2_apply, k2_pay1_apply, Ideal.ofBits_zero_f32, zero_add]
  have h := Cert.BlockAccum.sum_blocks 2 2048 (fun i : Fin (2 * 2048) => X i * W i)
  rw [Fin.sum_univ_two] at h
  unfold rowDot
  refine Eq.trans ?_ h.symm
  refine congrArg₂ (· + ·) (Finset.sum_congr rfl fun k _ => ?_) (Finset.sum_congr rfl fun k _ => ?_)
  · exact congrArg₂ (· * ·) (hA0 k) (hB0 k)
  · exact congrArg₂ (· * ·) (hA1 k) (hB1 k)

/-- The product array: entry (r, n) is the contraction of row r of the quantised activations with row n of the
    quantised weights. -/
def prodRows (X : S8192x4096.Idx → EReal) (W : S4096x4096.Idx → EReal) : S8192x4096.Idx → EReal :=
  fun i => rowDot (fun k => X (ix2 (i 0 : Fin 8192) k)) (fun k => W (ix2 (i 1 : Fin 4096) k))

/-- What an odd point writes back is its block of the product array: the point before it shares its rows of both
    operands and holds the first half of the contracted axis, this one the second. -/
theorem flushed2_eq (c : Dev nD) (t : Fin cfg2.N) (hf : (cfg2.win 2).flush t = true) :
    (Region2.dat V c).flushed 2 t
      = ((cfg2.win 2).blk t).view.read (Elt Ideal) (prodRows (V c main_v1) (V c main_v2)) := by
  have hodd : t.val % 2 = 1 := (flush2_2 t).mp hf
  have hN : cfg2.N = 64 := N_2
  have htN : t.val < 64 := by have := t.isLt; omega
  have hp : t.val - 1 < cfg2.N := by omega
  show (cfg2.win 2).cut (grid2.coords t) ((Region2.dat V c).after 2 t) = _
  rw [Region2.after_2, Region2.accAt_odd V c t (by omega)]
  unfold Region2.accFirst
  obtain ⟨e0, e1, e2, e3, e4, e5⟩ := idx2 t
  obtain ⟨f0, f1, f2, f3, -, -⟩ := idx2 ⟨t.val - 1, hp⟩
  have hprev : (⟨t.val - 1, hp⟩ : Fin cfg2.N).val = t.val - 1 := rfl
  rw [hprev] at f0 f1 f2 f3
  funext j
  have hj0 : (j 0).val < 1024 := (j 0).isLt
  have hj1 : (j 1).val < 1024 := (j 1).isLt
  show k2_pay2 (k2_pay2 (k2_pay1 (F := Ideal)) (Region2.iblk V c 0 ⟨t.val - 1, hp⟩) (Region2.iblk V c 1 ⟨t.val - 1, hp⟩))
      (Region2.iblk V c 0 t) (Region2.iblk V c 1 t) ((cfg2.win 2).xinj (grid2.coords t) j)
    = prodRows (V c main_v1) (V c main_v2) (((cfg2.win 2).blk t).view.emb j)
  refine acc_pair _ _ _ _ _ _ _ ?_ ?_ ?_ ?_
  · intro k
    have hk : k.val < 2048 := k.isLt
    show V c main_v1 (((cfg2.win 0).blk ⟨t.val - 1, hp⟩).view.emb (ix2 (⟨(j 0).val, hj0⟩ : Fin 1024) k)) = _
    refine congrArg (V c main_v1) (funext fun a => Fin.ext ?_)
    match a with
    | ⟨0, _⟩ =>
      show win2_0.index ⟨t.val - 1, hp⟩ (0 : Fin 2) * 1024 + 1 * (j 0).val = win2_2.index t (0 : Fin 2) * 1024 + 1 * (j 0).val
      omega
    | ⟨1, _⟩ =>
      show win2_0.index ⟨t.val - 1, hp⟩ (1 : Fin 2) * 2048 + 1 * k.val = 2048 * 0 + k.val
      omega
  · intro k
    have hk : k.val < 2048 := k.isLt
    show V c main_v1 (((cfg2.win 0).blk t).view.emb (ix2 (⟨(j 0).val, hj0⟩ : Fin 1024) k)) = _
    refine congrArg (V c main_v1) (funext fun a => Fin.ext ?_)
    match a with
    | ⟨0, _⟩ =>
      show win2_0.index t (0 : Fin 2) * 1024 + 1 * (j 0).val = win2_2.index t (0 : Fin 2) * 1024 + 1 * (j 0).val
      omega
    | ⟨1, _⟩ =>
      show win2_0.index t (1 : Fin 2) * 2048 + 1 * k.val = 2048 * 1 + k.val
      omega
  · intro k
    have hk : k.val < 2048 := k.isLt
    show V c main_v2 (((cfg2.win 1).blk ⟨t.val - 1, hp⟩).view.emb (ix2 (⟨(j 1).val, hj1⟩ : Fin 1024) k)) = _
    refine congrArg (V c main_v2) (funext fun a => Fin.ext ?_)
    match a with
    | ⟨0, _⟩ =>
      show win2_1.index ⟨t.val - 1, hp⟩ (0 : Fin 2) * 1024 + 1 * (j 1).val = win2_2.index t (1 : Fin 2) * 1024 + 1 * (j 1).val
      omega
    | ⟨1, _⟩ =>
      show win2_1.index ⟨t.val - 1, hp⟩ (1 : Fin 2) * 2048 + 1 * k.val = 2048 * 0 + k.val
      omega
  · intro k
    have hk : k.val < 2048 := k.isLt
    show V c main_v2 (((cfg2.win 1).blk t).view.emb (ix2 (⟨(j 1).val, hj1⟩ : Fin 1024) k)) = _
    refine congrArg (V c main_v2) (funext fun a => Fin.ext ?_)
    match a with
    | ⟨0, _⟩ =>
      show win2_1.index t (0 : Fin 2) * 1024 + 1 * (j 1).val = win2_2.index t (1 : Fin 2) * 1024 + 1 * (j 1).val
      omega
    | ⟨1, _⟩ =>
      show win2_1.index t (1 : Fin 2) * 2048 + 1 * k.val = 2048 * 1 + k.val
      omega

/-- An index of the array is in point t's block iff each coordinate is in the block's range on its axis. -/
theorem mem_blk2 (t : Fin cfg2.N) (i : S8192x4096.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v3).slice (win2_2.rect t)).set ↔ _
  rw [View.set_slice_whole, Rect.mem_set_unit]
  exact Iff.rfl

/-- Entry (r, n) lies in the block of the odd point 2 (4 (r / 1024) + n / 1024) + 1. -/
theorem cover2 (i : S8192x4096.Idx) :
    ∃ t : Fin cfg2.N, (cfg2.win 2).flush t = true ∧ i ∈ ((cfg2.win 2).blk t).view.set := by
  have hi0 : (i 0).val < 8192 := (i 0).isLt
  have hi1 : (i 1).val < 4096 := (i 1).isLt
  have hlt : 2 * (4 * ((i 0).val / 1024) + (i 1).val / 1024) + 1 < grid2.N := by rw [N_2]; omega
  obtain ⟨-, -, -, -, e4, e5⟩ := idx2 ⟨2 * (4 * ((i 0).val / 1024) + (i 1).val / 1024) + 1, hlt⟩
  have hval : (⟨2 * (4 * ((i 0).val / 1024) + (i 1).val / 1024) + 1, hlt⟩ : Fin cfg2.N).val
      = 2 * (4 * ((i 0).val / 1024) + (i 1).val / 1024) + 1 := rfl
  rw [hval] at e4 e5
  refine ⟨⟨2 * (4 * ((i 0).val / 1024) + (i 1).val / 1024) + 1, hlt⟩, (flush2_2 _).mpr (by rw [hval]; omega), ?_⟩
  rw [mem_blk2]
  intro a
  match a with
  | ⟨0, _⟩ =>
    show win2_2.index ⟨2 * (4 * ((i 0).val / 1024) + (i 1).val / 1024) + 1, hlt⟩ (0 : Fin 2) * 1024 ≤ (i 0).val
      ∧ (i 0).val < win2_2.index ⟨2 * (4 * ((i 0).val / 1024) + (i 1).val / 1024) + 1, hlt⟩ (0 : Fin 2) * 1024 + 1024
    omega
  | ⟨1, _⟩ =>
    show win2_2.index ⟨2 * (4 * ((i 0).val / 1024) + (i 1).val / 1024) + 1, hlt⟩ (1 : Fin 2) * 1024 ≤ (i 1).val
      ∧ (i 1).val < win2_2.index ⟨2 * (4 * ((i 0).val / 1024) + (i 1).val / 1024) + 1, hlt⟩ (1 : Fin 2) * 1024 + 1024
    omega

/-- The product's array after region 2: entry (r, n) is the contraction of row r of the quantised activations with
    row n of the quantised weights, one sum over all 4096 columns. -/
theorem final2 (c : Dev nD) :
    (Region2.dat V c).arrAt 2 cfg2.N
      = fun i : S8192x4096.Idx => rowDot (fun k => V c main_v1 (ix2 (i 0 : Fin 8192) k))
          (fun k => V c main_v2 (ix2 (i 1 : Fin 4096) k)) :=
  (Region2.dat V c).arrAt_eq_of_cover 2 (prodRows (V c main_v1) (V c main_v2)) (fun t hf => flushed2_eq V c t hf) cover2

end Cert.KernelValue

end
-- ==== Proof.Bridge.lean ====
/-
  From the run's last boundary to the specification.

  The run of @main leaves the result array at the contents of the last boundary: the second reshape of what region 2
  left, which is the sum over the 4096 columns of what regions 0 and 1 left — each the row-by-row quantised and
  dequantised view of its argument. Read at an index (b, s, n): the reshape reads row 2048 b + s of the [8192, 4096]
  product; the product's entry is the contraction of row 2048 b + s of the dequantised activations with row n of the
  dequantised weights; the activations' rows are the argument's rows (b, s) through the first reshape, the weights'
  rows the argument's own. That is the specification G, entry by entry.
-/
import proofs.«101090_j15023795602200_2_alg».proof.Proof.RunMain
import proofs.«101090_j15023795602200_2_alg».proof.Proof.Spec
import proofs.«101090_j15023795602200_2_alg».proof.Proof.LibMergeAxes
import proofs.«101090_j15023795602200_2_alg».proof.Proof.KernelValue
import Idealize.ShloMosaic.Lib.StableHlo.Run
import Idealize.ShloMosaic.Lib.ValueIdx
import Idealize.ShloMosaic.Lib.Pipeline.Value

set_option maxRecDepth 16384

noncomputable section

namespace Cert.Bridge

open Cert.KernelIdeal Cert.KernelIdeal.Gen Cert.KernelIdeal.RunMain Cert.BlockQuant Cert.KernelValue
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The activations as region 0 finds them: the argument viewed as [8192, 4096], row 2048 b + s being row (b, s). -/
theorem entry_x (r : Fin 8192) (k : Fin 4096) :
    E1 m ρ c main_v0 (ix2 r k) = xrow (m ((c : Thread nD τ).loc main_arg0)) r k := by
  have e : (E1 m ρ c main_v0 : S8192x4096.Idx → EReal)
      = shapeCast S8192x4096 (m ((c : Thread nD τ).loc main_arg0)) shapeCasts_S4x2048x4096_S8192x4096 := by
    show StableHlo.after hostOps0 (W0 m ρ c) (Proc.devRef .tc main_v0) = _
    after_results; rfl
  rw [e]; unfold xrow
  exact Cert.MergeAxes.shapeCast_abc_nc_apply _ _ _ _ k r (by
    show r.val = r.val / 2048 * 2048 + r.val % 2048
    omega)

/-- The weights as region 1 finds them: the argument itself. -/
theorem entry_w : E2 m ρ c main_arg1 = m ((c : Thread nD τ).loc main_arg1) :=
  calc E2 m ρ c main_arg1
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- The dequantised activations as region 2 finds them. -/
theorem entry_xd (r : Fin 8192) (k : Fin 4096) :
    E3 m ρ c main_v1 (ix2 r k) = qd (xrow (m ((c : Thread nD τ).loc main_arg0)) r) k := by
  have e : E3 m ρ c main_v1 = (Cert.KernelIdeal.Region0.dat (E1 m ρ) c).arrAt 1 cfg0.N :=
    (W3_of_ne m ρ c main_v1 (by decide)).trans (W2_arr m ρ c 1)
  rw [e, Cert.KernelValue.final0]
  show qd (fun k' => E1 m ρ c main_v0 (ix2 r k')) k = _
  exact congrArg (fun row => qd row k) (funext fun k' => entry_x m ρ c r k')

/-- The dequantised weights as region 2 finds them. -/
theorem entry_wd (n : Fin 4096) (k : Fin 4096) :
    E3 m ρ c main_v2 (ix2 n k) = qd (wrow (m ((c : Thread nD τ).loc main_arg1)) n) k := by
  have e : E3 m ρ c main_v2 = (Cert.KernelIdeal.Region1.dat (E2 m ρ) c).arrAt 1 cfg1.N := W3_arr m ρ c 1
  rw [e, Cert.KernelValue.final1]
  show qd (fun k' => E2 m ρ c main_arg1 (ix2 n k')) k = _
  rw [entry_w]
  rfl

/-- THE RESULT: what the run leaves in the result array is the specification of the two arguments. -/
theorem result_eq :
    W5 m ρ c (Proc.devRef .tc main_v4) = G (m ((c : Thread nD τ).loc main_arg0)) (m ((c : Thread nD τ).loc main_arg1)) := by
  have e5 : (W5 m ρ c (Proc.devRef .tc main_v4) : S4x2048x4096.Idx → EReal)
      = shapeCast S4x2048x4096 (W4 m ρ c (Proc.devRef .tc main_v3)) shapeCasts_S8192x4096_S4x2048x4096 := by
    show StableHlo.after hostOps3 (W4 m ρ c) (Proc.devRef .tc main_v4) = _
    after_results; rfl
  have e4 : W4 m ρ c (Proc.devRef .tc main_v3) = (Cert.KernelIdeal.Region2.dat (E3 m ρ) c).arrAt 2 cfg2.N := W4_arr m ρ c 2
  funext i
  obtain ⟨b, s, n, rfl⟩ : ∃ (b : Fin 4) (s : Fin 2048) (n : Fin 4096), i = ix3 b s n := ⟨i 0, i 1, i 2, eq_ix3 i⟩
  rw [e5, Cert.MergeAxes.shapeCast_nc_abc_apply _ _ b s n (rowOf b s) rfl, e4, Cert.KernelValue.final2]
  show rowDot (fun k => E3 m ρ c main_v1 (ix2 (rowOf b s) k)) (fun k => E3 m ρ c main_v2 (ix2 n k)) = _
  unfold rowDot G layer
  exact Finset.sum_congr rfl fun k _ =>
    congrArg₂ (fun a b : EReal => a * b) (entry_xd m ρ c (rowOf b s) k) (entry_wd m ρ c n k)

end Cert.Bridge

end
-- ==== Proof.lean ====
/-
  The certificate of the blockwise-quantised linear layer: a kernel of three regions against its reference.

  The kernel reshapes the activations [4, 2048, 4096] to [8192, 4096]; region 0 quantises and dequantises them row by
  row in blocks of 32 (multiplying by the reciprocal of each block's divisor), region 1 does the same to the weights
  [4096, 4096], region 2 multiplies the two results, the contracted axis in two slices of 2048 accumulated in a scratch;
  a last reshape gives [4, 2048, 4096]. The reference does the same on the host, dividing by the divisor and
  contracting all 4096 columns at once. On the extended reals the two agree with no condition on the inputs: the
  divisor is at least a positive constant, so multiplying by its reciprocal is dividing by it, and a sum over 4096
  terms is the sum of its two halves.

  The three frames: each kernel program's run through its regions; the reference's run with the result dropped. The
  ideal pass rewrote nothing. The value claim: both runs end with the result array at the specification G of the two
  arguments.
-/
import proofs.«101090_j15023795602200_2_alg».proof.Defs
import proofs.«101090_j15023795602200_2_alg».proof.Proof.Gen.Kernel
import proofs.«101090_j15023795602200_2_alg».proof.Proof.Gen.KernelIdeal
import proofs.«101090_j15023795602200_2_alg».proof.Proof.Gen.ReferenceIdeal
import proofs.«101090_j15023795602200_2_alg».proof.Proof.Gen.Pre_finite_inputs
import proofs.«101090_j15023795602200_2_alg».proof.Proof.Gen.ReferenceIdeal.Run
import proofs.«101090_j15023795602200_2_alg».proof.Proof.Gen.ReferenceIdeal.Read
import proofs.«101090_j15023795602200_2_alg».proof.Proof.RunMain
import proofs.«101090_j15023795602200_2_alg».proof.Proof.WordRunMain
import proofs.«101090_j15023795602200_2_alg».proof.Proof.RefValue
import proofs.«101090_j15023795602200_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its two arguments as launched: its three regions
    and two reshapes composed. -/
theorem frame_kernel : Cert.frame_Kernel := fun m ρ _ => Cert.Kernel.RunMain.frame m ρ

/-- The same program read at the ideal values. -/
theorem frame_kernelIdeal : Cert.frame_KernelIdeal := fun m ρ _ => Cert.KernelIdeal.RunMain.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values both programs leave, in the result array, the blockwise-quantised linear layer of the two
    arguments: the kernel's run ends at it (the bridge), the reference's run ends at it (its stages read one by one). -/
theorem algebraic : Cert.algebraic_KernelIdeal_ReferenceIdeal := by
  intro m ρ m' ρ' _ hagree
  refine ⟨fun c => Cert.BlockQuant.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.Bridge.result_eq m ρ c), (h c).2.1, (h c).2.2⟩)
      (Cert.KernelIdeal.RunMain.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v94_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
